-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 104
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S100000, .i32⟩
  | 14 => ⟨S1700000, .i32⟩
  | 15 => ⟨S1700000, .i32⟩
  | 16 => ⟨S_, .f32⟩
  | 17 => ⟨S100000, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000, .f32⟩
  | 3 => ⟨S100000x1, .f32⟩
  | 4 => ⟨S100000x1, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_call4_cst : Ref sig .tc := ⟨.hbm, 120, rfl⟩
abbrev main_call4_v0 : Ref sig .tc := ⟨.hbm, 121, rfl⟩
abbrev main_call4_cst_0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_cst_1 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  The program is four kernel regions among stretches of host operations. The buffer contents at each boundary are a fold
  from the launch memory: a stretch applies its operations, a region replaces its arrays by what its write-backs leave.
  Every weakly fair execution terminates, nothing faulting, with every unscoped buffer at the last boundary's contents; read
  at the result buffer this names the result, and read at the arguments it gives them back as launched.
-/
import proofs.«101159_j79053168050931_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Hand

end
-- ==== Proof.LibFoldCuts.lean ====
/-
  Cutting a straight line of host operations.

  The contents of the buffers after a line of operations are a left fold over the line, so the contents after two lines
  in a row are the second line's fold over the first's, and the contents after the first a + b operations of a line are
  the fold of the next b operations over the contents after the first a. A buffer that none of those next operations
  writes holds after them what it held before.
-/
import Idealize.ShloMosaic.Lib.StableHlo.Run

namespace Cert.FoldCuts

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The first a + b operations: the next b after the first a. -/
theorem after_take_add (l : List (HloOp τ sig Val)) (a b : ℕ) (V : Valuation τ sig Val) :
    after (l.take (a + b)) V = after ((l.drop a).take b) (after (l.take a) V) := by
  rw [List.take_add, after_append]

/-- A buffer that the operations from the a-th to the (a + b)-th do not write is, after the first a + b operations,
    as after the first a. -/
theorem after_take_add_keep (l : List (HloOp τ sig Val)) (a b : ℕ) (V : Valuation τ sig Val) (r : DevRef τ sig)
    (h : ∀ op ∈ (l.drop a).take b, r ∉ op.writes) :
    after (l.take (a + b)) V r = after (l.take a) V r := by
  rw [after_take_add]; exact after_of_forall_not_mem _ _ h

end Cert.FoldCuts
-- ==== Proof.Bridge0.lean ====
/-
  The two idealized programs side by side: names for their buffer contents.

  The reference is one straight line of 126 host operations; `B m' c n` names its buffers' contents after the first n of
  them, from the launch memory m'. The kernel program's contents at its boundaries are the generated fold's. Both
  programs compute the edge-index vectors, the edge normalisation and each layer's gather / scale / scatter-add by the same
  operations; the kernel program replaces each dense step of the reference by a kernel region. The facts here are about
  the reference's side: a buffer that a stretch of the line does not write keeps its contents over it — the argument
  arrays over every prefix, the index vectors and the normalisation from the 42nd operation on.
-/
import proofs.«101159_j79053168050931_1_alg».proof.Proof.Gen.KernelIdeal.Frame
import proofs.«101159_j79053168050931_1_alg».proof.Proof.RefRun
import proofs.«101159_j79053168050931_1_alg».proof.Proof.LibFoldCuts
import Idealize.ShloMosaic.PureOps.Ideal

set_option maxRecDepth 16384

noncomputable section

namespace Cert.Bridge

open Idealize.ShloMosaic Idealize.ShloMosaic.TcCoe Idealize.SL.Sem Idealize.ShloMosaic.StableHlo

/-- A memory of the kernel program, of the reference. -/
abbrev KM := (ℓ : Loc Cert.KernelIdeal.nD Cert.KernelIdeal.τ Cert.KernelIdeal.sig) → Buf (Elt Ideal) ℓ
abbrev RM := (ℓ : Loc Cert.ReferenceIdeal.nD Cert.ReferenceIdeal.τ Cert.ReferenceIdeal.sig) → Buf (Elt Ideal) ℓ

/-- The reference's operations, at the exact instance. -/
abbrev rops : List (HloOp Cert.ReferenceIdeal.τ Cert.ReferenceIdeal.sig (Elt Ideal)) := Cert.ReferenceIdeal.Value.ops (F := Ideal)

/-- The reference's buffer contents after its first n operations. -/
def B (m' : RM) (c : Dev Cert.ReferenceIdeal.nD) (n : ℕ) : Valuation Cert.ReferenceIdeal.τ Cert.ReferenceIdeal.sig (Elt Ideal) :=
  StableHlo.after (rops.take n) (launchContents m' c)

variable (m' : RM) (c : Dev Cert.ReferenceIdeal.nD)

/-- The contents after a + b operations are the next b operations' fold over the contents after a. -/
theorem B_add (a b : ℕ) : B m' c (a + b) = StableHlo.after ((rops.drop a).take b) (B m' c a) :=
  Cert.FoldCuts.after_take_add rops a b _

/-- After all 126 operations. -/
theorem B_all : StableHlo.after rops (launchContents m' c) = B m' c 126 := by
  unfold B; rw [List.take_of_length_le (by decide)]

/-- Evaluates a prefix or a middle stretch of the literal line. -/
macro "cut_line" : tactic =>
  `(tactic| simp only [rops, Cert.ReferenceIdeal.Value.ops, List.take_succ_cons, List.take_zero, List.drop_succ_cons, List.drop_zero, List.take_nil, List.drop_nil])

/-- No operation of the evaluated stretch writes the goal's buffer. -/
macro "no_writes" : tactic =>
  `(tactic| (simp only [List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- A buffer no operation of the first n writes is as launched. -/
macro "prefix_keeps" : tactic =>
  `(tactic| (unfold B; exact StableHlo.after_of_forall_not_mem _ _ (List.forall_iff_forall_mem.mp (by cut_line; no_writes))))

/-- A buffer the operations from the a-th to the (a + b)-th do not write. -/
macro "stretch_keeps" a:num b:num : tactic =>
  `(tactic| (unfold B; exact Cert.FoldCuts.after_take_add_keep rops $a $b _ _ (List.forall_iff_forall_mem.mp (by cut_line; no_writes))))

/-! ## The arguments, where the reference reads them -/
theorem B42_arg0 : B m' c 42 (Proc.devRef .tc Cert.ReferenceIdeal.main_arg0) = launchContents m' c (Proc.devRef .tc Cert.ReferenceIdeal.main_arg0) := by prefix_keeps
theorem B42_arg3 : B m' c 42 (Proc.devRef .tc Cert.ReferenceIdeal.main_arg3) = launchContents m' c (Proc.devRef .tc Cert.ReferenceIdeal.main_arg3) := by prefix_keeps
theorem B59_arg4 : B m' c 59 (Proc.devRef .tc Cert.ReferenceIdeal.main_arg4) = launchContents m' c (Proc.devRef .tc Cert.ReferenceIdeal.main_arg4) := by prefix_keeps
theorem B59_arg5 : B m' c 59 (Proc.devRef .tc Cert.ReferenceIdeal.main_arg5) = launchContents m' c (Proc.devRef .tc Cert.ReferenceIdeal.main_arg5) := by prefix_keeps
theorem B82_arg6 : B m' c 82 (Proc.devRef .tc Cert.ReferenceIdeal.main_arg6) = launchContents m' c (Proc.devRef .tc Cert.ReferenceIdeal.main_arg6) := by prefix_keeps
theorem B82_arg7 : B m' c 82 (Proc.devRef .tc Cert.ReferenceIdeal.main_arg7) = launchContents m' c (Proc.devRef .tc Cert.ReferenceIdeal.main_arg7) := by prefix_keeps
theorem B105_arg8 : B m' c 105 (Proc.devRef .tc Cert.ReferenceIdeal.main_arg8) = launchContents m' c (Proc.devRef .tc Cert.ReferenceIdeal.main_arg8) := by prefix_keeps

/-! ## The index vectors and the normalisation, from the 42nd operation on -/
theorem B43_v5 : B m' c (42 + 1) (Proc.devRef .tc Cert.ReferenceIdeal.main_v5) = B m' c 42 (Proc.devRef .tc Cert.ReferenceIdeal.main_v5) := by stretch_keeps 42 1
theorem B43_v6 : B m' c (42 + 1) (Proc.devRef .tc Cert.ReferenceIdeal.main_v6) = B m' c 42 (Proc.devRef .tc Cert.ReferenceIdeal.main_v6) := by stretch_keeps 42 1
theorem B43_v31 : B m' c (42 + 1) (Proc.devRef .tc Cert.ReferenceIdeal.main_v31) = B m' c 42 (Proc.devRef .tc Cert.ReferenceIdeal.main_v31) := by stretch_keeps 42 1
theorem B66_v5 : B m' c (42 + 24) (Proc.devRef .tc Cert.ReferenceIdeal.main_v5) = B m' c 42 (Proc.devRef .tc Cert.ReferenceIdeal.main_v5) := by stretch_keeps 42 24
theorem B66_v6 : B m' c (42 + 24) (Proc.devRef .tc Cert.ReferenceIdeal.main_v6) = B m' c 42 (Proc.devRef .tc Cert.ReferenceIdeal.main_v6) := by stretch_keeps 42 24
theorem B66_v31 : B m' c (42 + 24) (Proc.devRef .tc Cert.ReferenceIdeal.main_v31) = B m' c 42 (Proc.devRef .tc Cert.ReferenceIdeal.main_v31) := by stretch_keeps 42 24
theorem B89_v5 : B m' c (42 + 47) (Proc.devRef .tc Cert.ReferenceIdeal.main_v5) = B m' c 42 (Proc.devRef .tc Cert.ReferenceIdeal.main_v5) := by stretch_keeps 42 47
theorem B89_v6 : B m' c (42 + 47) (Proc.devRef .tc Cert.ReferenceIdeal.main_v6) = B m' c 42 (Proc.devRef .tc Cert.ReferenceIdeal.main_v6) := by stretch_keeps 42 47
theorem B89_v31 : B m' c (42 + 47) (Proc.devRef .tc Cert.ReferenceIdeal.main_v31) = B m' c 42 (Proc.devRef .tc Cert.ReferenceIdeal.main_v31) := by stretch_keeps 42 47

end Cert.Bridge

end
-- ==== Proof.LibHostBoth.lean ====
/-
  Reading one buffer after a straight line of host operations.

  The contents of the buffers after a line of operations are a fold over the line: each operation replaces its
  result buffer by its function's value of its operand buffers and leaves every other buffer alone. So what ONE buffer
  holds after a literal line is a computation: walk the line backwards from that buffer, at each operation either
  taking its function's value (the buffer is its result) or passing through it (it is not), and do the same for the
  operands met on the way. `host_read` does this for a goal that mentions `StableHlo.after ops V (Proc.devRef .tc b)`
  for literal lists `ops` and literal references `b`, on both sides of an equation at once: one rewriting pass that
  visits every shared operand once, then a loop over what the pass cannot reach — the operands of a concatenation sit
  inside a list of pairs (shape, contents), under which the pass does not rewrite —, then the removal of the identity
  casts with which an outlined function's operations carry values to and from their buffers' own types. What is left
  is an equation between terms of the pure operations over `V` at the line's own inputs. Stated for two programs at
  once — `after opsR WR (Proc.devRef .tc bR) = after opsK WK (Proc.devRef .tc bK)` over two signatures, with hypotheses
  that `WR` and `WK` agree at the lines' inputs — the goal after `host_read` closes by rewriting with those
  hypotheses and `rfl`, when the two lines are the same operations. (On a line made only of an outlined function's
  operations the last of the three steps, removing the casts, can cost far more than the rest: there the first step
  alone, `after_results_simp`, leaves both sides with the same casts in the same places, which is enough.)
  `cut_list` evaluates the prefixes and suffixes (`List.take`, `List.drop`) of a literal list.
-/
import Idealize.ShloMosaic.Lib.StableHlo.Run

namespace Cert.LibHostBoth

open Idealize.ShloMosaic Idealize.ShloMosaic.StableHlo

/-- The loop: one operation's result at one reference per step, anywhere in the goal. -/
macro "results_loop" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-- The pass, the loop, the casts. -/
macro "host_read" : tactic =>
  `(tactic| ((try after_results_simp); results_loop;
             (try simp only [StableHlo.TRef.toBuf, StableHlo.TRef.ofBuf, cast_eq])))

/-- Prefixes and suffixes of a literal list. -/
macro "cut_list" : tactic =>
  `(tactic| simp only [List.take_succ_cons, List.take_zero, List.drop_succ_cons, List.drop_zero, List.take_nil, List.drop_nil])

end Cert.LibHostBoth
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.Bridge1.lean ====
/-
  The first stage: the edge-index vectors and the edge normalisation.

  Both programs start with the same operations on the edge list and the edge weights: the source and target vectors with
  the self loops appended, the weighted in-degrees by a scatter-add, their inverse square roots where positive, and
  the normalisation of each edge, the product of its weight with its two endpoints' factors. From memories that agree on
  the arguments the two programs therefore hold the same vectors when the first dense step begins; the kernel program
  keeps the normalisation as a column, which the reference forms again in each layer.
-/
import proofs.«101159_j79053168050931_1_alg».proof.Proof.Bridge0
import proofs.«101159_j79053168050931_1_alg».proof.Proof.LibHostBoth
import proofs.«101159_j79053168050931_1_alg».proof.Proof.LibHostKeeps

set_option maxRecDepth 16384

noncomputable section

namespace Cert.Bridge

open Idealize.ShloMosaic Idealize.ShloMosaic.TcCoe Idealize.SL.Sem Idealize.ShloMosaic.StableHlo
open Cert.LibHostBoth Cert.LibHostKeeps

/-- The two launch memories agree on the nine arguments. -/
def Agree (m : KM) (m' : RM) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable (m : KM) (ρ : Dev Cert.KernelIdeal.nD → PrngReg) (m' : RM) (c : Dev Cert.KernelIdeal.nD)

/-- The same at the programs' launch contents. -/
theorem launch_arg1 (hag : Agree m m' c) : launchContents m' c (Proc.devRef .tc Cert.ReferenceIdeal.main_arg1) = Cert.KernelIdeal.Gen.W0 m ρ c (Proc.devRef .tc Cert.KernelIdeal.main_arg1) := hag.2.1
theorem launch_arg2 (hag : Agree m m' c) : launchContents m' c (Proc.devRef .tc Cert.ReferenceIdeal.main_arg2) = Cert.KernelIdeal.Gen.W0 m ρ c (Proc.devRef .tc Cert.KernelIdeal.main_arg2) := hag.2.2.1

/-! ## After the first 19 operations: the index vectors, the weights with the self loops' ones, the degrees' mask and inverse roots -/

/-- The source vertices with the self loops. -/
theorem s1a_v5 (hag : Agree m m' c) : Cert.KernelIdeal.Gen.W1 m ρ c (Proc.devRef .tc Cert.KernelIdeal.main_v5) = B m' c 19 (Proc.devRef .tc Cert.ReferenceIdeal.main_v5) := by
  unfold B
  cut_line
  show StableHlo.after Cert.KernelIdeal.Gen.hostOps0 (Cert.KernelIdeal.Gen.W0 m ρ c) (Proc.devRef .tc Cert.KernelIdeal.main_v5) = _
  host_read
  (try rw [launch_arg1 m ρ m' c hag]); (try rw [launch_arg2 m ρ m' c hag]); (try rfl)

/-- The target vertices with the self loops. -/
theorem s1a_v6 (hag : Agree m m' c) : Cert.KernelIdeal.Gen.W1 m ρ c (Proc.devRef .tc Cert.KernelIdeal.main_v6) = B m' c 19 (Proc.devRef .tc Cert.ReferenceIdeal.main_v6) := by
  unfold B
  cut_line
  show StableHlo.after Cert.KernelIdeal.Gen.hostOps0 (Cert.KernelIdeal.Gen.W0 m ρ c) (Proc.devRef .tc Cert.KernelIdeal.main_v6) = _
  host_read
  (try rw [launch_arg1 m ρ m' c hag]); (try rw [launch_arg2 m ρ m' c hag]); (try rfl)

/-- The edge weights with a one for each self loop. -/
theorem s1a_v8 (hag : Agree m m' c) : Cert.KernelIdeal.Gen.W1 m ρ c (Proc.devRef .tc Cert.KernelIdeal.main_v8) = B m' c 19 (Proc.devRef .tc Cert.ReferenceIdeal.main_v8) := by
  unfold B
  cut_line
  show StableHlo.after Cert.KernelIdeal.Gen.hostOps0 (Cert.KernelIdeal.Gen.W0 m ρ c) (Proc.devRef .tc Cert.KernelIdeal.main_v8) = _
  host_read
  (try rw [launch_arg1 m ρ m' c hag]); (try rw [launch_arg2 m ρ m' c hag]); (try rfl)

/-- Where the weighted in-degree is positive. -/
theorem s1a_v13 (hag : Agree m m' c) : Cert.KernelIdeal.Gen.W1 m ρ c (Proc.devRef .tc Cert.KernelIdeal.main_v13) = B m' c 19 (Proc.devRef .tc Cert.ReferenceIdeal.main_v13) := by
  unfold B
  cut_line
  show StableHlo.after Cert.KernelIdeal.Gen.hostOps0 (Cert.KernelIdeal.Gen.W0 m ρ c) (Proc.devRef .tc Cert.KernelIdeal.main_v13) = _
  host_read
  (try rw [launch_arg1 m ρ m' c hag]); (try rw [launch_arg2 m ρ m' c hag]); (try rfl)

/-- The inverse square roots of the weighted in-degrees. -/
theorem s1a_v14 (hag : Agree m m' c) : Cert.KernelIdeal.Gen.W1 m ρ c (Proc.devRef .tc Cert.KernelIdeal.main_v14) = B m' c 19 (Proc.devRef .tc Cert.ReferenceIdeal.main_v14) := by
  unfold B
  cut_line
  show StableHlo.after Cert.KernelIdeal.Gen.hostOps0 (Cert.KernelIdeal.Gen.W0 m ρ c) (Proc.devRef .tc Cert.KernelIdeal.main_v14) = _
  host_read
  (try rw [launch_arg1 m ρ m' c hag]); (try rw [launch_arg2 m ρ m' c hag]); (try rfl)

/-- The zero that replaces the inverse root of a degree that is not positive. -/
theorem s1a_cst_2 (hag : Agree m m' c) : Cert.KernelIdeal.Gen.W1 m ρ c (Proc.devRef .tc Cert.KernelIdeal.main_cst_2) = B m' c 19 (Proc.devRef .tc Cert.ReferenceIdeal.main_cst_2) := by
  unfold B
  cut_line
  show StableHlo.after Cert.KernelIdeal.Gen.hostOps0 (Cert.KernelIdeal.Gen.W0 m ρ c) (Proc.devRef .tc Cert.KernelIdeal.main_cst_2) = _
  host_read
  (try rw [launch_arg1 m ρ m' c hag]); (try rw [launch_arg2 m ρ m' c hag]); (try rfl)

/-! ## After 22: the inverse roots where the degree is positive, zero elsewhere -/

/-- The per-vertex factor. -/
theorem s1b_v15 (hag : Agree m m' c) : Cert.KernelIdeal.Gen.W2 m ρ c (Proc.devRef .tc Cert.KernelIdeal.main_v15) = B m' c (19 + 3) (Proc.devRef .tc Cert.ReferenceIdeal.main_v15) := by
  have a13 := s1a_v13 m ρ m' c hag
  have a14 := s1a_v14 m ρ m' c hag
  have acst := s1a_cst_2 m ρ m' c hag
  rw [B_add]
  cut_line
  show StableHlo.after Cert.KernelIdeal.Gen.hostOps0_1 (Cert.KernelIdeal.Gen.W1 m ρ c) (Proc.devRef .tc Cert.KernelIdeal.main_v15) = _
  generalize Cert.KernelIdeal.Gen.W1 m ρ c = Wv at a13 a14 acst ⊢
  host_read
  rw [a13, a14, acst]
  try rfl

theorem s1b_v5 (hag : Agree m m' c) : Cert.KernelIdeal.Gen.W2 m ρ c (Proc.devRef .tc Cert.KernelIdeal.main_v5) = B m' c (19 + 3) (Proc.devRef .tc Cert.ReferenceIdeal.main_v5) :=
  ((by host_keeps Cert.KernelIdeal.Gen.hostOps0_1 : Cert.KernelIdeal.Gen.W2 m ρ c (Proc.devRef .tc Cert.KernelIdeal.main_v5) = Cert.KernelIdeal.Gen.W1 m ρ c (Proc.devRef .tc Cert.KernelIdeal.main_v5)).trans (s1a_v5 m ρ m' c hag)).trans
    (by stretch_keeps 19 3 : B m' c (19 + 3) (Proc.devRef .tc Cert.ReferenceIdeal.main_v5) = B m' c 19 (Proc.devRef .tc Cert.ReferenceIdeal.main_v5)).symm

theorem s1b_v6 (hag : Agree m m' c) : Cert.KernelIdeal.Gen.W2 m ρ c (Proc.devRef .tc Cert.KernelIdeal.main_v6) = B m' c (19 + 3) (Proc.devRef .tc Cert.ReferenceIdeal.main_v6) :=
  ((by host_keeps Cert.KernelIdeal.Gen.hostOps0_1 : Cert.KernelIdeal.Gen.W2 m ρ c (Proc.devRef .tc Cert.KernelIdeal.main_v6) = Cert.KernelIdeal.Gen.W1 m ρ c (Proc.devRef .tc Cert.KernelIdeal.main_v6)).trans (s1a_v6 m ρ m' c hag)).trans
    (by stretch_keeps 19 3 : B m' c (19 + 3) (Proc.devRef .tc Cert.ReferenceIdeal.main_v6) = B m' c 19 (Proc.devRef .tc Cert.ReferenceIdeal.main_v6)).symm

theorem s1b_v8 (hag : Agree m m' c) : Cert.KernelIdeal.Gen.W2 m ρ c (Proc.devRef .tc Cert.KernelIdeal.main_v8) = B m' c (19 + 3) (Proc.devRef .tc Cert.ReferenceIdeal.main_v8) :=
  ((by host_keeps Cert.KernelIdeal.Gen.hostOps0_1 : Cert.KernelIdeal.Gen.W2 m ρ c (Proc.devRef .tc Cert.KernelIdeal.main_v8) = Cert.KernelIdeal.Gen.W1 m ρ c (Proc.devRef .tc Cert.KernelIdeal.main_v8)).trans (s1a_v8 m ρ m' c hag)).trans
    (by stretch_keeps 19 3 : B m' c (19 + 3) (Proc.devRef .tc Cert.ReferenceIdeal.main_v8) = B m' c 19 (Proc.devRef .tc Cert.ReferenceIdeal.main_v8)).symm

/-! ## After 42: each edge's normalisation -/

/-- The normalisation: the kernel program's column is the reference's vector viewed as a column. -/
theorem s1_v32 (hag : Agree m m' c) : Cert.KernelIdeal.Gen.W3 m ρ c (Proc.devRef .tc Cert.KernelIdeal.main_v32)
    = broadcastInDim Cert.KernelIdeal.S1700000x1 ![0] Cert.KernelIdeal.Gen.bcast_S1700000_S1700000x1_0 (B m' c (22 + 20) (Proc.devRef .tc Cert.ReferenceIdeal.main_v31)) := by
  have a15 := s1b_v15 m ρ m' c hag
  have a5 := s1b_v5 m ρ m' c hag
  have a6 := s1b_v6 m ρ m' c hag
  have a8 := s1b_v8 m ρ m' c hag
  rw [B_add]
  cut_line
  show StableHlo.after Cert.KernelIdeal.Gen.hostOps0_2 (Cert.KernelIdeal.Gen.W2 m ρ c) (Proc.devRef .tc Cert.KernelIdeal.main_v32) = _
  generalize Cert.KernelIdeal.Gen.W2 m ρ c = Wv at a15 a5 a6 a8 ⊢
  host_read
  rw [a15, a5, a6, a8]
  try rfl

theorem s1_v5 (hag : Agree m m' c) : Cert.KernelIdeal.Gen.W3 m ρ c (Proc.devRef .tc Cert.KernelIdeal.main_v5) = B m' c (22 + 20) (Proc.devRef .tc Cert.ReferenceIdeal.main_v5) :=
  ((by host_keeps Cert.KernelIdeal.Gen.hostOps0_2 : Cert.KernelIdeal.Gen.W3 m ρ c (Proc.devRef .tc Cert.KernelIdeal.main_v5) = Cert.KernelIdeal.Gen.W2 m ρ c (Proc.devRef .tc Cert.KernelIdeal.main_v5)).trans (s1b_v5 m ρ m' c hag)).trans
    (by stretch_keeps 22 20 : B m' c (22 + 20) (Proc.devRef .tc Cert.ReferenceIdeal.main_v5) = B m' c 22 (Proc.devRef .tc Cert.ReferenceIdeal.main_v5)).symm

theorem s1_v6 (hag : Agree m m' c) : Cert.KernelIdeal.Gen.W3 m ρ c (Proc.devRef .tc Cert.KernelIdeal.main_v6) = B m' c (22 + 20) (Proc.devRef .tc Cert.ReferenceIdeal.main_v6) :=
  ((by host_keeps Cert.KernelIdeal.Gen.hostOps0_2 : Cert.KernelIdeal.Gen.W3 m ρ c (Proc.devRef .tc Cert.KernelIdeal.main_v6) = Cert.KernelIdeal.Gen.W2 m ρ c (Proc.devRef .tc Cert.KernelIdeal.main_v6)).trans (s1b_v6 m ρ m' c hag)).trans
    (by stretch_keeps 22 20 : B m' c (22 + 20) (Proc.devRef .tc Cert.ReferenceIdeal.main_v6) = B m' c 22 (Proc.devRef .tc Cert.ReferenceIdeal.main_v6)).symm

end Cert.Bridge

end
-- ==== Proof.Bridge2.lean ====
/-
  The sparse step of each layer: gather, scale, scatter-add.

  Between two dense steps both programs take the rows of the current feature matrix at the edges' sources, scale each by
  its edge's normalisation, and add them up at the edges' targets, by the same operations. So from feature matrices that
  agree, and the same index vectors and normalisation, the aggregated matrices agree. (The negative-index wrap that
  precedes each gather is computed again in each layer by both programs, from the same source vector.)
-/
import proofs.«101159_j79053168050931_1_alg».proof.Proof.Bridge0
import proofs.«101159_j79053168050931_1_alg».proof.Proof.LibHostBoth

set_option maxRecDepth 16384

noncomputable section

namespace Cert.Bridge

open Idealize.ShloMosaic Idealize.ShloMosaic.TcCoe Idealize.SL.Sem Idealize.ShloMosaic.StableHlo
open Cert.LibHostBoth

variable (m : KM) (ρ : Dev Cert.KernelIdeal.nD → PrngReg) (m' : RM) (c : Dev Cert.KernelIdeal.nD)

/-- Layer 1's aggregation. -/
theorem s3_agg
    (hH : Cert.KernelIdeal.Gen.W4 m ρ c (Proc.devRef .tc Cert.KernelIdeal.main_v33) = B m' c 43 (Proc.devRef .tc Cert.ReferenceIdeal.main_v32))
    (e5 : Cert.KernelIdeal.Gen.W4 m ρ c (Proc.devRef .tc Cert.KernelIdeal.main_v5) = B m' c 43 (Proc.devRef .tc Cert.ReferenceIdeal.main_v5))
    (e6 : Cert.KernelIdeal.Gen.W4 m ρ c (Proc.devRef .tc Cert.KernelIdeal.main_v6) = B m' c 43 (Proc.devRef .tc Cert.ReferenceIdeal.main_v6))
    (e32 : Cert.KernelIdeal.Gen.W4 m ρ c (Proc.devRef .tc Cert.KernelIdeal.main_v32)
      = broadcastInDim Cert.KernelIdeal.S1700000x1 ![0] Cert.KernelIdeal.Gen.bcast_S1700000_S1700000x1_0 (B m' c 43 (Proc.devRef .tc Cert.ReferenceIdeal.main_v31))) :
    Cert.KernelIdeal.Gen.W5 m ρ c (Proc.devRef .tc Cert.KernelIdeal.main_v45) = B m' c (43 + 16) (Proc.devRef .tc Cert.ReferenceIdeal.main_v45) := by
  rw [B_add]
  cut_line
  show StableHlo.after Cert.KernelIdeal.Gen.hostOps1 (Cert.KernelIdeal.Gen.W4 m ρ c) (Proc.devRef .tc Cert.KernelIdeal.main_v45) = _
  host_read
  rw [hH, e5, e6, e32]
  rfl

/-- Layer 2's aggregation. -/
theorem s5_agg
    (hH : Cert.KernelIdeal.Gen.W6 m ρ c (Proc.devRef .tc Cert.KernelIdeal.main_v47) = B m' c 66 (Proc.devRef .tc Cert.ReferenceIdeal.main_v50))
    (e5 : Cert.KernelIdeal.Gen.W6 m ρ c (Proc.devRef .tc Cert.KernelIdeal.main_v5) = B m' c 66 (Proc.devRef .tc Cert.ReferenceIdeal.main_v5))
    (e6 : Cert.KernelIdeal.Gen.W6 m ρ c (Proc.devRef .tc Cert.KernelIdeal.main_v6) = B m' c 66 (Proc.devRef .tc Cert.ReferenceIdeal.main_v6))
    (e32 : Cert.KernelIdeal.Gen.W6 m ρ c (Proc.devRef .tc Cert.KernelIdeal.main_v32)
      = broadcastInDim Cert.KernelIdeal.S1700000x1 ![0] Cert.KernelIdeal.Gen.bcast_S1700000_S1700000x1_0 (B m' c 66 (Proc.devRef .tc Cert.ReferenceIdeal.main_v31))) :
    Cert.KernelIdeal.Gen.W7 m ρ c (Proc.devRef .tc Cert.KernelIdeal.main_v59) = B m' c (66 + 16) (Proc.devRef .tc Cert.ReferenceIdeal.main_v63) := by
  rw [B_add]
  cut_line
  show StableHlo.after Cert.KernelIdeal.Gen.hostOps2 (Cert.KernelIdeal.Gen.W6 m ρ c) (Proc.devRef .tc Cert.KernelIdeal.main_v59) = _
  host_read
  rw [hH, e5, e6, e32]
  rfl

/-- Layer 3's aggregation. -/
theorem s7_agg
    (hH : Cert.KernelIdeal.Gen.W8 m ρ c (Proc.devRef .tc Cert.KernelIdeal.main_v61) = B m' c 89 (Proc.devRef .tc Cert.ReferenceIdeal.main_v68))
    (e5 : Cert.KernelIdeal.Gen.W8 m ρ c (Proc.devRef .tc Cert.KernelIdeal.main_v5) = B m' c 89 (Proc.devRef .tc Cert.ReferenceIdeal.main_v5))
    (e6 : Cert.KernelIdeal.Gen.W8 m ρ c (Proc.devRef .tc Cert.KernelIdeal.main_v6) = B m' c 89 (Proc.devRef .tc Cert.ReferenceIdeal.main_v6))
    (e32 : Cert.KernelIdeal.Gen.W8 m ρ c (Proc.devRef .tc Cert.KernelIdeal.main_v32)
      = broadcastInDim Cert.KernelIdeal.S1700000x1 ![0] Cert.KernelIdeal.Gen.bcast_S1700000_S1700000x1_0 (B m' c 89 (Proc.devRef .tc Cert.ReferenceIdeal.main_v31))) :
    Cert.KernelIdeal.Gen.W9 m ρ c (Proc.devRef .tc Cert.KernelIdeal.main_v73) = B m' c (89 + 16) (Proc.devRef .tc Cert.ReferenceIdeal.main_v81) := by
  rw [B_add]
  cut_line
  show StableHlo.after Cert.KernelIdeal.Gen.hostOps3 (Cert.KernelIdeal.Gen.W8 m ρ c) (Proc.devRef .tc Cert.KernelIdeal.main_v73) = _
  host_read
  rw [hH, e5, e6, e32]
  rfl

end Cert.Bridge

end
-- ==== Proof.KCarry.lean ====
/-
  Buffers that ride through the kernel program unchanged.

  A stretch of host operations writes only its operations' results and a kernel region only its own arrays, so the two
  edge-index vectors and the edge normalisation, computed before the first region, and the argument arrays are, at every
  later boundary, what they were: each fact below walks one buffer back through the boundaries between it and the
  place where it is read.
-/
import proofs.«101159_j79053168050931_1_alg».proof.Proof.Gen.KernelIdeal.Frame
import proofs.«101159_j79053168050931_1_alg».proof.Proof.LibHostKeeps

set_option maxRecDepth 16384

noncomputable section

namespace Cert.KernelIdeal.Hand

open Cert.KernelIdeal Cert.KernelIdeal.Gen Cert.LibHostKeeps
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## The edge vectors and the normalisation, from the first region's entry on -/

theorem K4_v5 : W4 m ρ c (Proc.devRef .tc main_v5) = W3 m ρ c (Proc.devRef .tc main_v5) := W4_of_ne m ρ c main_v5 (by decide)
theorem K6_v5 : W6 m ρ c (Proc.devRef .tc main_v5) = W3 m ρ c (Proc.devRef .tc main_v5) :=
  (W6_of_ne m ρ c main_v5 (by decide)).trans (((by host_keeps hostOps1) : W5 m ρ c (Proc.devRef .tc main_v5) = W4 m ρ c (Proc.devRef .tc main_v5)).trans (K4_v5 m ρ c))
theorem K8_v5 : W8 m ρ c (Proc.devRef .tc main_v5) = W3 m ρ c (Proc.devRef .tc main_v5) :=
  (W8_of_ne m ρ c main_v5 (by decide)).trans (((by host_keeps hostOps2) : W7 m ρ c (Proc.devRef .tc main_v5) = W6 m ρ c (Proc.devRef .tc main_v5)).trans (K6_v5 m ρ c))

theorem K4_v6 : W4 m ρ c (Proc.devRef .tc main_v6) = W3 m ρ c (Proc.devRef .tc main_v6) := W4_of_ne m ρ c main_v6 (by decide)
theorem K6_v6 : W6 m ρ c (Proc.devRef .tc main_v6) = W3 m ρ c (Proc.devRef .tc main_v6) :=
  (W6_of_ne m ρ c main_v6 (by decide)).trans (((by host_keeps hostOps1) : W5 m ρ c (Proc.devRef .tc main_v6) = W4 m ρ c (Proc.devRef .tc main_v6)).trans (K4_v6 m ρ c))
theorem K8_v6 : W8 m ρ c (Proc.devRef .tc main_v6) = W3 m ρ c (Proc.devRef .tc main_v6) :=
  (W8_of_ne m ρ c main_v6 (by decide)).trans (((by host_keeps hostOps2) : W7 m ρ c (Proc.devRef .tc main_v6) = W6 m ρ c (Proc.devRef .tc main_v6)).trans (K6_v6 m ρ c))

theorem K4_v32 : W4 m ρ c (Proc.devRef .tc main_v32) = W3 m ρ c (Proc.devRef .tc main_v32) := W4_of_ne m ρ c main_v32 (by decide)
theorem K6_v32 : W6 m ρ c (Proc.devRef .tc main_v32) = W3 m ρ c (Proc.devRef .tc main_v32) :=
  (W6_of_ne m ρ c main_v32 (by decide)).trans (((by host_keeps hostOps1) : W5 m ρ c (Proc.devRef .tc main_v32) = W4 m ρ c (Proc.devRef .tc main_v32)).trans (K4_v32 m ρ c))
theorem K8_v32 : W8 m ρ c (Proc.devRef .tc main_v32) = W3 m ρ c (Proc.devRef .tc main_v32) :=
  (W8_of_ne m ρ c main_v32 (by decide)).trans (((by host_keeps hostOps2) : W7 m ρ c (Proc.devRef .tc main_v32) = W6 m ρ c (Proc.devRef .tc main_v32)).trans (K6_v32 m ρ c))

/-! ## The argument arrays, at each boundary where one is read -/

theorem A3_arg0 : W3 m ρ c (Proc.devRef .tc main_arg0) = m ((c : Thread nD τ).loc main_arg0) :=
  ((by host_keeps hostOps0_2) : W3 m ρ c (Proc.devRef .tc main_arg0) = W2 m ρ c (Proc.devRef .tc main_arg0)).trans (((by host_keeps hostOps0_1) : W2 m ρ c (Proc.devRef .tc main_arg0) = W1 m ρ c (Proc.devRef .tc main_arg0)).trans ((by host_keeps hostOps0) : W1 m ρ c (Proc.devRef .tc main_arg0) = W0 m ρ c (Proc.devRef .tc main_arg0)))

theorem A3_arg3 : W3 m ρ c (Proc.devRef .tc main_arg3) = m ((c : Thread nD τ).loc main_arg3) :=
  ((by host_keeps hostOps0_2) : W3 m ρ c (Proc.devRef .tc main_arg3) = W2 m ρ c (Proc.devRef .tc main_arg3)).trans (((by host_keeps hostOps0_1) : W2 m ρ c (Proc.devRef .tc main_arg3) = W1 m ρ c (Proc.devRef .tc main_arg3)).trans ((by host_keeps hostOps0) : W1 m ρ c (Proc.devRef .tc main_arg3) = W0 m ρ c (Proc.devRef .tc main_arg3)))

theorem A3_arg4 : W3 m ρ c (Proc.devRef .tc main_arg4) = m ((c : Thread nD τ).loc main_arg4) :=
  ((by host_keeps hostOps0_2) : W3 m ρ c (Proc.devRef .tc main_arg4) = W2 m ρ c (Proc.devRef .tc main_arg4)).trans (((by host_keeps hostOps0_1) : W2 m ρ c (Proc.devRef .tc main_arg4) = W1 m ρ c (Proc.devRef .tc main_arg4)).trans ((by host_keeps hostOps0) : W1 m ρ c (Proc.devRef .tc main_arg4) = W0 m ρ c (Proc.devRef .tc main_arg4)))
theorem A4_arg4 : W4 m ρ c (Proc.devRef .tc main_arg4) = m ((c : Thread nD τ).loc main_arg4) := (W4_of_ne m ρ c main_arg4 (by decide)).trans (A3_arg4 m ρ c)

theorem A3_arg5 : W3 m ρ c (Proc.devRef .tc main_arg5) = m ((c : Thread nD τ).loc main_arg5) :=
  ((by host_keeps hostOps0_2) : W3 m ρ c (Proc.devRef .tc main_arg5) = W2 m ρ c (Proc.devRef .tc main_arg5)).trans (((by host_keeps hostOps0_1) : W2 m ρ c (Proc.devRef .tc main_arg5) = W1 m ρ c (Proc.devRef .tc main_arg5)).trans ((by host_keeps hostOps0) : W1 m ρ c (Proc.devRef .tc main_arg5) = W0 m ρ c (Proc.devRef .tc main_arg5)))
theorem A4_arg5 : W4 m ρ c (Proc.devRef .tc main_arg5) = m ((c : Thread nD τ).loc main_arg5) := (W4_of_ne m ρ c main_arg5 (by decide)).trans (A3_arg5 m ρ c)
theorem A5_arg5 : W5 m ρ c (Proc.devRef .tc main_arg5) = m ((c : Thread nD τ).loc main_arg5) := ((by host_keeps hostOps1) : W5 m ρ c (Proc.devRef .tc main_arg5) = W4 m ρ c (Proc.devRef .tc main_arg5)).trans (A4_arg5 m ρ c)

theorem A3_arg6 : W3 m ρ c (Proc.devRef .tc main_arg6) = m ((c : Thread nD τ).loc main_arg6) :=
  ((by host_keeps hostOps0_2) : W3 m ρ c (Proc.devRef .tc main_arg6) = W2 m ρ c (Proc.devRef .tc main_arg6)).trans (((by host_keeps hostOps0_1) : W2 m ρ c (Proc.devRef .tc main_arg6) = W1 m ρ c (Proc.devRef .tc main_arg6)).trans ((by host_keeps hostOps0) : W1 m ρ c (Proc.devRef .tc main_arg6) = W0 m ρ c (Proc.devRef .tc main_arg6)))
theorem A4_arg6 : W4 m ρ c (Proc.devRef .tc main_arg6) = m ((c : Thread nD τ).loc main_arg6) := (W4_of_ne m ρ c main_arg6 (by decide)).trans (A3_arg6 m ρ c)
theorem A5_arg6 : W5 m ρ c (Proc.devRef .tc main_arg6) = m ((c : Thread nD τ).loc main_arg6) := ((by host_keeps hostOps1) : W5 m ρ c (Proc.devRef .tc main_arg6) = W4 m ρ c (Proc.devRef .tc main_arg6)).trans (A4_arg6 m ρ c)
theorem A6_arg6 : W6 m ρ c (Proc.devRef .tc main_arg6) = m ((c : Thread nD τ).loc main_arg6) := (W6_of_ne m ρ c main_arg6 (by decide)).trans (A5_arg6 m ρ c)

theorem A3_arg7 : W3 m ρ c (Proc.devRef .tc main_arg7) = m ((c : Thread nD τ).loc main_arg7) :=
  ((by host_keeps hostOps0_2) : W3 m ρ c (Proc.devRef .tc main_arg7) = W2 m ρ c (Proc.devRef .tc main_arg7)).trans (((by host_keeps hostOps0_1) : W2 m ρ c (Proc.devRef .tc main_arg7) = W1 m ρ c (Proc.devRef .tc main_arg7)).trans ((by host_keeps hostOps0) : W1 m ρ c (Proc.devRef .tc main_arg7) = W0 m ρ c (Proc.devRef .tc main_arg7)))
theorem A4_arg7 : W4 m ρ c (Proc.devRef .tc main_arg7) = m ((c : Thread nD τ).loc main_arg7) := (W4_of_ne m ρ c main_arg7 (by decide)).trans (A3_arg7 m ρ c)
theorem A5_arg7 : W5 m ρ c (Proc.devRef .tc main_arg7) = m ((c : Thread nD τ).loc main_arg7) := ((by host_keeps hostOps1) : W5 m ρ c (Proc.devRef .tc main_arg7) = W4 m ρ c (Proc.devRef .tc main_arg7)).trans (A4_arg7 m ρ c)
theorem A6_arg7 : W6 m ρ c (Proc.devRef .tc main_arg7) = m ((c : Thread nD τ).loc main_arg7) := (W6_of_ne m ρ c main_arg7 (by decide)).trans (A5_arg7 m ρ c)
theorem A7_arg7 : W7 m ρ c (Proc.devRef .tc main_arg7) = m ((c : Thread nD τ).loc main_arg7) := ((by host_keeps hostOps2) : W7 m ρ c (Proc.devRef .tc main_arg7) = W6 m ρ c (Proc.devRef .tc main_arg7)).trans (A6_arg7 m ρ c)

theorem A3_arg8 : W3 m ρ c (Proc.devRef .tc main_arg8) = m ((c : Thread nD τ).loc main_arg8) :=
  ((by host_keeps hostOps0_2) : W3 m ρ c (Proc.devRef .tc main_arg8) = W2 m ρ c (Proc.devRef .tc main_arg8)).trans (((by host_keeps hostOps0_1) : W2 m ρ c (Proc.devRef .tc main_arg8) = W1 m ρ c (Proc.devRef .tc main_arg8)).trans ((by host_keeps hostOps0) : W1 m ρ c (Proc.devRef .tc main_arg8) = W0 m ρ c (Proc.devRef .tc main_arg8)))
theorem A4_arg8 : W4 m ρ c (Proc.devRef .tc main_arg8) = m ((c : Thread nD τ).loc main_arg8) := (W4_of_ne m ρ c main_arg8 (by decide)).trans (A3_arg8 m ρ c)
theorem A5_arg8 : W5 m ρ c (Proc.devRef .tc main_arg8) = m ((c : Thread nD τ).loc main_arg8) := ((by host_keeps hostOps1) : W5 m ρ c (Proc.devRef .tc main_arg8) = W4 m ρ c (Proc.devRef .tc main_arg8)).trans (A4_arg8 m ρ c)
theorem A6_arg8 : W6 m ρ c (Proc.devRef .tc main_arg8) = m ((c : Thread nD τ).loc main_arg8) := (W6_of_ne m ρ c main_arg8 (by decide)).trans (A5_arg8 m ρ c)
theorem A7_arg8 : W7 m ρ c (Proc.devRef .tc main_arg8) = m ((c : Thread nD τ).loc main_arg8) := ((by host_keeps hostOps2) : W7 m ρ c (Proc.devRef .tc main_arg8) = W6 m ρ c (Proc.devRef .tc main_arg8)).trans (A6_arg8 m ρ c)
theorem A8_arg8 : W8 m ρ c (Proc.devRef .tc main_arg8) = m ((c : Thread nD τ).loc main_arg8) := (W8_of_ne m ρ c main_arg8 (by decide)).trans (A7_arg8 m ρ c)

end Cert.KernelIdeal.Hand

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«101159_j79053168050931_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibGcn.lean ====
/-
  Graph-convolution layers over the extended reals, for any sizes.

  One layer of a graph convolution multiplies a feature matrix Y by the adjacency matrix A, keeps the positive part,
  and multiplies by the next layer's weights W:  layer A Y W = (A · Y)⁺ · W.  The last layer stops at (A · Y)⁺.
  Read at the exact extended reals, where a change of float format is the identity:
    * a matrix-unit product into the zero accumulator and a host `dot_general`, under dimension numbers that are the
      plain ones (rows × inner times inner × columns), are the matrix product `mm` as whole arrays;
    * the maximum with a splat of the zero word, and with a rank-0 zero constant broadcast in dimension, is `relu`;
    * so a kernel body  truncf (matmul (truncf (max (matmul A Y 0) 0)) W 0)  is `layer A Y W`, and the host's
      max (dot_general A (dot_general Z W)) 0  is `relu (mm A (mm Z W))`.
  Entry (p, j) of `layer A Y W` and of `relu (mm A Y)` reads row p of A only: a block of rows of A gives the same rows
  of the result (`layer_rows`, `last_rows`).
-/
import Idealize.ShloMosaic.Lib.ValueIdx
import Idealize.ShloMosaic.Lib.Pipeline.Value
import Idealize.ShloMosaic.PureOps.Ideal.Laws
import proofs.«101159_j79053168050931_1_alg».proof.Proof.LibPlainDot
import proofs.«101159_j79053168050931_1_alg».proof.Proof.LibMatOps

noncomputable section

open scoped BigOperators

namespace Cert.LibGcn

open Idealize.ShloMosaic Idealize.ShloMosaic.ValueIdx Cert.Spec

variable {r n h e N : ℕ}

/-- (A · Y)⁺ · W. -/
def layer (A : Mat r n) (Y : Mat n h) (W : Mat h e) : Mat r e := mm (relu (mm A Y)) W

/-- A change of float format is the identity on the extended reals. -/
theorem truncf_eq {s : Shape} {φ ψ : FTy} (x : FVec Ideal s φ) (hlt : ψ.bits < φ.bits) :
    (truncf ψ x hlt : FVec Ideal s ψ) = x := rfl

/-- A matrix-unit product into the zero accumulator is the matrix product. -/
theorem matmul_zero_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    matmul D prec A Y (constant (F := Ideal) ⟨2, ![r, h]⟩ .f32 0x00000000#32) = mm A Y := by
  funext i
  obtain ⟨p, c, rfl⟩ : ∃ (p : Fin r) (c : Fin h), i = ix2 p c := ⟨i 0, i 1, eq_ix2 i⟩
  exact (Cert.LibPlainDot.matmul_zero_apply D hD prec A Y p c).trans (mm_apply A Y p c).symm

/-- A host `dot_general` is the matrix product. -/
theorem dotGeneral_eq_mm {φ₁ φ₂ : FTy} (D : DotDims ⟨2, ![r, n]⟩ ⟨2, ![n, h]⟩ ⟨2, ![r, h]⟩) (hD : D = DotDims.plain r n h)
    (prec : Option ContractPrecision) (A : FVec Ideal ⟨2, ![r, n]⟩ φ₁) (Y : FVec Ideal ⟨2, ![n, h]⟩ φ₂) :
    Host.dotGeneral D prec A Y = mm A Y := by
  funext i
  obtain ⟨p, c, rfl⟩ : ∃ (p : Fin r) (c : Fin h), i = ix2 p c := ⟨i 0, i 1, eq_ix2 i⟩
  exact (Cert.LibPlainDot.dotGeneral_apply D hD prec .single A Y p c).trans (mm_apply A Y p c).symm

/-- The maximum with a splat of the zero word is the positive part. -/
theorem max_splat_zero (X : FVec Ideal ⟨2, ![r, h]⟩ .f32) :
    maximumf X (broadcast ⟨2, ![r, h]⟩ (Scalar.ofBits .f32 0x00000000#32 : Ideal .f32)) = relu X := by
  funext i
  show max (X i) (Ideal.ofBits .f32 0x00000000#32) = max (X i) 0
  rw [Ideal.ofBits_zero_f32]

/-- The maximum with a zero constant of any shape broadcast in dimension is the positive part. -/
theorem max_bcast_zero {s0 : Shape} (dims : Fin s0.rank → Fin (⟨2, ![r, h]⟩ : Shape).rank)
    (hb : s0.BroadcastsInDim ⟨2, ![r, h]⟩ dims) (X : FVec Ideal ⟨2, ![r, h]⟩ .f32) :
    maximumf X (broadcastInDim ⟨2, ![r, h]⟩ dims hb (constant (F := Ideal) s0 .f32 0x00000000#32)) = relu X := by
  funext i
  show max (X i) (broadcastInDim ⟨2, ![r, h]⟩ dims hb (constant (F := Ideal) s0 .f32 0x00000000#32) i) = max (X i) 0
  unfold broadcastInDim
  show max (X i) (Ideal.ofBits .f32 0x00000000#32) = max (X i) 0
  rw [Ideal.ofBits_zero_f32]

/-- The fused body of a middle layer: two matrix-unit products around the positive part. -/
theorem body_layer (D1 : DotDims ⟨2, ![r, n]⟩ ⟨2, ![n, h]⟩ ⟨2, ![r, h]⟩) (hD1 : D1 = DotDims.plain r n h)
    (D2 : DotDims ⟨2, ![r, h]⟩ ⟨2, ![h, e]⟩ ⟨2, ![r, e]⟩) (hD2 : D2 = DotDims.plain r h e)
    {φ₁ φ₂ φ₃ : FTy} (A : FVec Ideal ⟨2, ![r, n]⟩ φ₁) (Y : FVec Ideal ⟨2, ![n, h]⟩ φ₂) (W : FVec Ideal ⟨2, ![h, e]⟩ φ₃) :
    matmul D2 none (maximumf (matmul D1 none A Y (constant (F := Ideal) ⟨2, ![r, h]⟩ .f32 0x00000000#32))
        (broadcast ⟨2, ![r, h]⟩ (Scalar.ofBits .f32 0x00000000#32 : Ideal .f32))) W
      (constant (F := Ideal) ⟨2, ![r, e]⟩ .f32 0x00000000#32) = layer A Y W := by
  rw [matmul_zero_eq_mm D1 hD1, max_splat_zero]
  exact matmul_zero_eq_mm D2 hD2 none (relu (mm A Y)) W

/-- The body of the last layer: one matrix-unit product and the positive part. -/
theorem body_last (D1 : DotDims ⟨2, ![r, n]⟩ ⟨2, ![n, h]⟩ ⟨2, ![r, h]⟩) (hD1 : D1 = DotDims.plain r n h)
    {φ₁ φ₂ : FTy} (A : FVec Ideal ⟨2, ![r, n]⟩ φ₁) (Y : FVec Ideal ⟨2, ![n, h]⟩ φ₂) :
    maximumf (matmul D1 none A Y (constant (F := Ideal) ⟨2, ![r, h]⟩ .f32 0x00000000#32))
        (broadcast ⟨2, ![r, h]⟩ (Scalar.ofBits .f32 0x00000000#32 : Ideal .f32)) = relu (mm A Y) := by
  rw [matmul_zero_eq_mm D1 hD1, max_splat_zero]

/-- One host layer: the product with the weights, the product with the adjacency matrix, the positive part. -/
theorem host_layer {s0 : Shape} (DW : DotDims ⟨2, ![N, h]⟩ ⟨2, ![h, e]⟩ ⟨2, ![N, e]⟩) (hDW : DW = DotDims.plain N h e)
    (DA : DotDims ⟨2, ![r, N]⟩ ⟨2, ![N, e]⟩ ⟨2, ![r, e]⟩) (hDA : DA = DotDims.plain r N e)
    (dims : Fin s0.rank → Fin (⟨2, ![r, e]⟩ : Shape).rank) (hb : s0.BroadcastsInDim ⟨2, ![r, e]⟩ dims)
    (A : FVec Ideal ⟨2, ![r, N]⟩ .f32) (Z : FVec Ideal ⟨2, ![N, h]⟩ .f32) (W : FVec Ideal ⟨2, ![h, e]⟩ .f32) :
    maximumf (Host.dotGeneral DA none A (Host.dotGeneral DW none Z W))
        (broadcastInDim ⟨2, ![r, e]⟩ dims hb (constant (F := Ideal) s0 .f32 0x00000000#32)) = relu (mm A (mm Z W)) := by
  rw [dotGeneral_eq_mm DW hDW, dotGeneral_eq_mm DA hDA]
  exact max_bcast_zero dims hb _

/-- Row p of the matrix product reads row p of the left factor only. -/
theorem mm_rows (A' : Mat r n) (A : Mat N n) (Y : Mat n h) (p : Fin r) (p' : Fin N) (j : Fin h)
    (hA : ∀ s : Fin n, A' (ix2 p s) = A (ix2 p' s)) : mm A' Y (ix2 p j) = mm A Y (ix2 p' j) := by
  rw [mm_apply, mm_apply]
  exact Finset.sum_congr rfl fun s _ => by rw [hA s]

/-- Row p of a layer's result reads row p of the adjacency block only. -/
theorem layer_rows (A' : Mat r n) (A : Mat N n) (Y : Mat n h) (W : Mat h e) (p : Fin r) (p' : Fin N) (j : Fin e)
    (hA : ∀ s : Fin n, A' (ix2 p s) = A (ix2 p' s)) : layer A' Y W (ix2 p j) = layer A Y W (ix2 p' j) := by
  unfold layer
  rw [mm_apply, mm_apply]
  refine Finset.sum_congr rfl fun q _ => ?_
  rw [relu_apply, relu_apply, mm_rows A' A Y p p' q hA]

/-- The same for the last layer. -/
theorem last_rows (A' : Mat r n) (A : Mat N n) (Y : Mat n h) (p : Fin r) (p' : Fin N) (j : Fin h)
    (hA : ∀ s : Fin n, A' (ix2 p s) = A (ix2 p' s)) : relu (mm A' Y) (ix2 p j) = relu (mm A Y) (ix2 p' j) := by
  rw [relu_apply, relu_apply, mm_rows A' A Y p p' j hA]

end Cert.LibGcn

end
-- ==== Proof.LibBiasRow.lean ====
/-
  A bias vector as one row, and a row added to every row, for any sizes.

  A vector b of d entries becomes the one-row matrix whose entry (0, j) is b j either by a reshape ([d] viewed as [1, d])
  or by a broadcast in dimension along the second axis ([d] to [1, d] with dims = [1]): the same matrix. A one-row matrix
  broadcast in dimension to n rows (dims = [0, 1]) and added entry by entry to an n-row matrix is that row added to every
  row (`Cert.Spec.addRow`).
-/
import Idealize.ShloMosaic.Lib.ValueIdx
import Idealize.ShloMosaic.Lib.Pipeline.Value
import Idealize.ShloMosaic.PureOps.Ideal
import proofs.«101159_j79053168050931_1_alg».proof.Proof.LibMatOps

noncomputable section

namespace Cert.LibBiasRow

open Idealize.ShloMosaic Idealize.ShloMosaic.ValueIdx Cert.Spec

variable {α : Type} {n d : ℕ}

/-- A [d] vector viewed as [1, d] reads, at (u, j), the vector at j. -/
theorem shapeCast_d_1d_apply (x : (⟨1, ![d]⟩ : Shape).Idx → α) (h : (⟨1, ![d]⟩ : Shape).ShapeCasts ⟨2, ![1, d]⟩)
    (u : Fin 1) (j : Fin d) : shapeCast ⟨2, ![1, d]⟩ x h (ix2 u j) = x (ix1 j) :=
  shapeCast_apply x h _ _ (by
    have hu : u.val = 0 := by omega
    rw [Shape.rowMajor_val_two, Shape.rowMajor_val_one]
    show j.val = u.val * d + j.val
    rw [hu, Nat.zero_mul, Nat.zero_add])

/-- A [d] vector broadcast in dimension to [1, d] along the second axis reads, at (u, j), the vector at j. -/
theorem broadcastInDim_d_1d_apply (x : (⟨1, ![d]⟩ : Shape).Idx → α)
    (h : (⟨1, ![d]⟩ : Shape).BroadcastsInDim ⟨2, ![1, d]⟩ ![1]) (u : Fin 1) (j : Fin d) :
    broadcastInDim ⟨2, ![1, d]⟩ ![1] h x (ix2 u j) = x (ix1 j) := by
  refine broadcastInDim_apply _ h x (ix2 u j) (ix1 j) fun a => ?_
  match a with
  | ⟨0, _⟩ =>
    show j.val = if d = 1 then 0 else j.val
    split
    · have := j.isLt; omega
    · rfl

/-- The reshape and the broadcast in dimension give the same one-row matrix. -/
theorem shapeCast_eq_broadcastInDim (x : (⟨1, ![d]⟩ : Shape).Idx → α) (h : (⟨1, ![d]⟩ : Shape).ShapeCasts ⟨2, ![1, d]⟩)
    (hb : (⟨1, ![d]⟩ : Shape).BroadcastsInDim ⟨2, ![1, d]⟩ ![1]) :
    shapeCast ⟨2, ![1, d]⟩ x h = broadcastInDim ⟨2, ![1, d]⟩ ![1] hb x := by
  funext i
  obtain ⟨u, j, rfl⟩ : ∃ (u : Fin 1) (j : Fin d), i = ix2 u j := ⟨i 0, i 1, eq_ix2 i⟩
  rw [shapeCast_d_1d_apply, broadcastInDim_d_1d_apply]

/-- A one-row matrix broadcast in dimension to n rows reads, at (p, j), the row's entry j. -/
theorem broadcastInDim_1d_nd_apply (v : (⟨2, ![1, d]⟩ : Shape).Idx → α)
    (h : (⟨2, ![1, d]⟩ : Shape).BroadcastsInDim ⟨2, ![n, d]⟩ ![0, 1]) (p : Fin n) (j : Fin d) :
    broadcastInDim ⟨2, ![n, d]⟩ ![0, 1] h v (ix2 p j) = v (ix2 (0 : Fin 1) j) := by
  refine broadcastInDim_apply _ h v (ix2 p j) (ix2 (0 : Fin 1) j) fun a => ?_
  match a with
  | ⟨0, _⟩ =>
    show 0 = if 1 = 1 then 0 else p.val
    rfl
  | ⟨1, _⟩ =>
    show j.val = if d = 1 then 0 else j.val
    split
    · have := j.isLt; omega
    · rfl

/-- Adding the broadcast row entry by entry is adding the row to every row. -/
theorem addf_broadcastInDim_eq_addRow (X : FVec Ideal ⟨2, ![n, d]⟩ .f32) (Bv : FVec Ideal ⟨2, ![1, d]⟩ .f32)
    (h : (⟨2, ![1, d]⟩ : Shape).BroadcastsInDim ⟨2, ![n, d]⟩ ![0, 1]) :
    addf X (broadcastInDim ⟨2, ![n, d]⟩ ![0, 1] h Bv) = addRow X Bv := by
  funext i
  obtain ⟨p, j, rfl⟩ : ∃ (p : Fin n) (j : Fin d), i = ix2 p j := ⟨i 0, i 1, eq_ix2 i⟩
  show X (ix2 p j) + broadcastInDim ⟨2, ![n, d]⟩ ![0, 1] h Bv (ix2 p j) = _
  rw [broadcastInDim_1d_nd_apply, addRow_apply]

end Cert.LibBiasRow

end
-- ==== Proof.Region0.lean ====
/-
  The first matrix-product region: ten points, each multiplying a block of 10000 rows of the features by the whole
  first weight matrix.  Row p of block t of the result is row 10000·t + p of the product of the whole arrays, because an
  entry of a matrix product reads one row of its left factor only; the ten blocks cover the 100000 rows, so the output
  array ends at the product of the two input arrays as the region finds them.
-/
import proofs.«101159_j79053168050931_1_alg».proof.Proof.Gen.KernelIdeal.Frame
import proofs.«101159_j79053168050931_1_alg».proof.Proof.LibGcn

noncomputable section

namespace Cert.KernelIdeal.Hand

open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a whole-buffer access, however spelt. -/
theorem hz0 : (![0, 0] : Fin 2 → Nat) = fun _ => 0 := funext fun a => by fin_cases a <;> rfl

/-- The body's payload is the matrix product of its two loaded blocks: at the extended reals a change of float
    format is the identity and a matrix-unit product into the zero accumulator is the product. -/
theorem pay0_eq (x0 : Vec Ideal S10000x128 .f32) (w0 : Vec Ideal S128x128 .f32) : k0_pay1 x0 w0 = mm x0 w0 := by
  unfold k0_pay1
  exact Cert.LibGcn.matmul_zero_eq_mm _ rfl none x0 w0

/-- The payload at an index of the block: when row (j 0) of the loaded block is row (i 0) of the array X, the weights
    block is W, and the two indices have the same column, the payload there is the product X · W at i — an entry of a
    matrix product reads one row of its left factor only. -/
theorem pay0_at (x0 : Vec Ideal S10000x128 .f32) (w0 : Vec Ideal S128x128 .f32) (X : Mat 100000 128) (W : Mat 128 128)
    (j : S10000x128.Idx) (i : S100000x128.Idx)
    (hx : ∀ q : Fin 128, x0 (ix2 (j 0) q) = X (ix2 (i 0) q)) (hw : w0 = W) (hcol : (i 1).val = (j 1).val) :
    k0_pay1 x0 w0 j = mm X W i := by
  obtain ⟨p, q, rfl⟩ : ∃ (p : Fin 10000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hcol
  subst hw
  rw [pay0_eq]
  exact Cert.LibGcn.mm_rows x0 X w0 p p' q' hx

/-- The printed index maps, decided over the grid's ten points: the row-blocked windows are at block (t, 0), the
    weights window at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two input arrays as the region finds them. -/
theorem flushed0_eq (c : Dev nD) (t : Fin cfg0.N) :
    (dat0 (F := Ideal) V c).flushed 2 t
      = ((cfg0.win 2).blk t).view.read (Elt Ideal) (mm (V c main_arg0 : Mat 100000 128) (V c main_arg3 : Mat 128 128)) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x128) hz0]
  obtain ⟨e0, e1, e2, e3, e4, e5⟩ := idx0 t
  funext j
  show k0_pay1 (iblk0 V c 0 t) (iblk0 V c 1 t) j
    = mm (V c main_arg0 : Mat 100000 128) (V c main_arg3 : Mat 128 128) (((cfg0.win 2).blk t).view.emb j)
  refine pay0_at _ _ _ _ j _ ?_ ?_ ?_
  · intro q
    show V c main_arg0 (((cfg0.win 0).blk t).view.emb (ix2 (j 0) q))
      = V c main_arg0 (ix2 ((((cfg0.win 2).blk t).view.emb j) 0) q)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * q.val = q.val
      omega
  · funext k
    show V c main_arg3 (((cfg0.win 1).blk t).view.emb k) = V c main_arg3 k
    refine congrArg _ (funext fun a => Fin.ext ?_)
    match a with
    | ⟨0, _⟩ =>
      show win0_1.index t (0 : Fin 2) * 128 + 1 * (k 0).val = (k 0).val
      omega
    | ⟨1, _⟩ =>
      show win0_1.index t (1 : Fin 2) * 128 + 1 * (k 1).val = (k 1).val
      omega
  · show win0_2.index t (1 : Fin 2) * 128 + 1 * (j 1).val = (j 1).val
    omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v33).slice (win0_2.rect t)).set ↔ _
  rw [View.set_slice_whole, Rect.mem_set_unit]
  exact Iff.rfl

/-- The ten blocks of 10000 rows cover the array: row r is in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, show (i 0).val / 10000 < 10 by omega⟩, rfl⟩
  obtain ⟨e0, e1, e2, e3, e4, e5⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array of the first matrix-product region ends at the product of the features by the first weights. -/
theorem arr0 (c : Dev nD) :
    (dat0 (F := Ideal) V c).arrAt 2 cfg0.N = mm (V c main_arg0 : Mat 100000 128) (V c main_arg3 : Mat 128 128) :=
  (dat0 (F := Ideal) V c).arrAt_eq_of_cover 2 _ (fun t _ => flushed0_eq V c t) cover0

end Cert.KernelIdeal.Hand

end
-- ==== Proof.Region1.lean ====
/-
  The second matrix-product region: ten points, each taking a block of 10000 rows of the features, adding the bias row,
  keeping the positive part, and multiplying by the whole weight matrix.  Row p of block t of the result is row
  10000·t + p of (X + B)⁺ · W of the whole arrays, because an entry of a matrix product reads one row of its left factor
  only and the bias row and the positive part act entry by entry; the ten blocks cover the 100000 rows, so the output
  array ends at (X + B)⁺ · W of the three input arrays as the region finds them.
-/
import proofs.«101159_j79053168050931_1_alg».proof.Proof.Gen.KernelIdeal.Frame
import proofs.«101159_j79053168050931_1_alg».proof.Proof.LibGcn

noncomputable section

namespace Cert.KernelIdeal.Hand

open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a whole-buffer access, however spelt. -/
theorem hz1 : (![0, 0] : Fin 2 → Nat) = fun _ => 0 := funext fun a => by fin_cases a <;> rfl

/-- A block with the one-row bias block broadcast down its rows and added is the block with that row added to every
    row: the broadcast reads entry (0, q) of the row at every (p, q). -/
theorem bias1_eq (x0 : Vec Ideal S10000x128 .f32) (b0 : Vec Ideal S1x128 .f32) :
    (addf (shapeCast S10000x128 x0 shapeCasts_S10000x128_S10000x128)
        (broadcastTo S10000x128 (shapeCast S1x128 b0 shapeCasts_S1x128_S1x128) broadcasts_S1x128_S10000x128)
      : FVec Ideal S10000x128 .f32) = addRow x0 b0 := by
  rw [shapeCast_self, shapeCast_self]
  funext i
  obtain ⟨p, q, rfl⟩ : ∃ (p : Fin 10000) (q : Fin 128), i = ix2 p q := ⟨i 0, i 1, eq_ix2 i⟩
  rw [addf_apply, addRow_apply]
  refine congrArg _ (broadcastTo_apply b0 _ (ix2 p q) (ix2 (0 : Fin 1) q) fun a => ?_)
  match a with
  | ⟨0, _⟩ => rfl
  | ⟨1, _⟩ => rfl

/-- The body's payload: the positive part of the block plus the bias row, times the weights block — at the extended
    reals a change of float format is the identity and a matrix-unit product into the zero accumulator is the product. -/
theorem pay1_eq (x0 : Vec Ideal S10000x128 .f32) (b0 : Vec Ideal S1x128 .f32) (w0 : Vec Ideal S128x128 .f32) :
    k1_pay1 x0 b0 w0 = mm (relu (addRow x0 b0)) w0 := by
  unfold k1_pay1
  dsimp only
  rw [Cert.LibGcn.truncf_eq, Cert.LibGcn.truncf_eq, bias1_eq, Cert.LibGcn.max_splat_zero]
  exact Cert.LibGcn.matmul_zero_eq_mm _ rfl none _ w0

/-- The payload at an index of the block: when row (j 0) of the loaded block is row (i 0) of the array X, the bias and
    weights blocks are B and W, and the two indices have the same column, the payload there is (X + B)⁺ · W at i — an
    entry of a matrix product reads one row of its left factor only, and the bias row and the positive part act entry
    by entry. -/
theorem pay1_at (x0 : Vec Ideal S10000x128 .f32) (b0 : Vec Ideal S1x128 .f32) (w0 : Vec Ideal S128x128 .f32)
    (X : Mat 100000 128) (B : Mat 1 128) (W : Mat 128 128) (j : S10000x128.Idx) (i : S100000x128.Idx)
    (hx : ∀ q : Fin 128, x0 (ix2 (j 0) q) = X (ix2 (i 0) q)) (hb : b0 = B) (hw : w0 = W)
    (hcol : (i 1).val = (j 1).val) :
    k1_pay1 x0 b0 w0 j = mm (relu (addRow X B)) W i := by
  obtain ⟨p, q, rfl⟩ : ∃ (p : Fin 10000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hcol
  subst hb hw
  have hx' : ∀ s : Fin 128, x0 (ix2 p s) = X (ix2 p' s) := hx
  rw [pay1_eq]
  refine Cert.LibGcn.mm_rows _ _ w0 p p' q' fun s => ?_
  rw [relu_apply, relu_apply, addRow_apply, addRow_apply, hx' s]

/-- The printed index maps, decided over the grid's ten points: the row-blocked windows are at block (t, 0), the bias
    and weights windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of (X + B)⁺ · W of the three input arrays as the region finds them. -/
theorem flushed1_eq (c : Dev nD) (t : Fin cfg1.N) :
    (dat1 (F := Ideal) V c).flushed 3 t
      = ((cfg1.win 3).blk t).view.read (Elt Ideal)
          (mm (relu (addRow (V c main_v45 : Mat 100000 128) (V c main_v46 : Mat 1 128))) (V c main_arg5 : Mat 128 128)) := by
  show (cfg1.win 3).cut (grid1.coords t) ((dat1 V c).after 3 t) = _
  rw [after1_3]
  unfold out1_3
  rw [View.canon_unit_zero hz1]
  simp only [View.ld_unit_zero (S := S10000x128) hz1, View.ld_unit_zero (S := S1x128) hz1, View.ld_unit_zero (S := S128x128) hz1]
  obtain ⟨e0, e1, e2, e3, e4, e5, e6, e7⟩ := idx1 t
  funext j
  show k1_pay1 (iblk1 V c 0 t) (iblk1 V c 1 t) (iblk1 V c 2 t) j
    = mm (relu (addRow (V c main_v45 : Mat 100000 128) (V c main_v46 : Mat 1 128))) (V c main_arg5 : Mat 128 128)
        (((cfg1.win 3).blk t).view.emb j)
  refine pay1_at _ _ _ _ _ _ j _ ?_ ?_ ?_ ?_
  · intro q
    show V c main_v45 (((cfg1.win 0).blk t).view.emb (ix2 (j 0) q))
      = V c main_v45 (ix2 ((((cfg1.win 3).blk t).view.emb j) 0) q)
    refine congrArg _ (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 128 + 1 * q.val = q.val
      omega
  · funext k
    show V c main_v46 (((cfg1.win 1).blk t).view.emb k) = V c main_v46 k
    refine congrArg _ (funext fun a => Fin.ext ?_)
    match a with
    | ⟨0, _⟩ =>
      show win1_1.index t (0 : Fin 2) * 1 + 1 * (k 0).val = (k 0).val
      omega
    | ⟨1, _⟩ =>
      show win1_1.index t (1 : Fin 2) * 128 + 1 * (k 1).val = (k 1).val
      omega
  · funext k
    show V c main_arg5 (((cfg1.win 2).blk t).view.emb k) = V c main_arg5 k
    refine congrArg _ (funext fun a => Fin.ext ?_)
    match a with
    | ⟨0, _⟩ =>
      show win1_2.index t (0 : Fin 2) * 128 + 1 * (k 0).val = (k 0).val
      omega
    | ⟨1, _⟩ =>
      show win1_2.index t (1 : Fin 2) * 128 + 1 * (k 1).val = (k 1).val
      omega
  · show win1_3.index t (1 : Fin 2) * 128 + 1 * (j 1).val = (j 1).val
    omega

/-- An index of the array is in point t's block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v47).slice (win1_3.rect t)).set ↔ _
  rw [View.set_slice_whole, Rect.mem_set_unit]
  exact Iff.rfl

/-- The ten blocks of 10000 rows cover the array: row r is in the block of point r / 10000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, show (i 0).val / 10000 < 10 by omega⟩, rfl⟩
  obtain ⟨e0, e1, e2, e3, e4, e5, e6, e7⟩ := idx1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The region's output array ends at (X + B)⁺ · W: the positive part of its input features plus the bias row, times
    the layer's weights. -/
theorem arr1 (c : Dev nD) :
    (dat1 (F := Ideal) V c).arrAt 3 cfg1.N
      = mm (relu (addRow (V c main_v45 : Mat 100000 128) (V c main_v46 : Mat 1 128))) (V c main_arg5 : Mat 128 128) :=
  (dat1 (F := Ideal) V c).arrAt_eq_of_cover 3 _ (fun t _ => flushed1_eq V c t) cover1

end Cert.KernelIdeal.Hand

end
-- ==== Proof.Region2.lean ====
/-
  The third matrix-product region: ten points, each taking a block of 10000 rows of the features, adding the bias row,
  keeping the positive part, and multiplying by the whole weight matrix.  Row p of block t of the result is row
  10000·t + p of (X + B)⁺ · W of the whole arrays, because an entry of a matrix product reads one row of its left factor
  only and the bias row and the positive part act entry by entry; the ten blocks cover the 100000 rows, so the output
  array ends at (X + B)⁺ · W of the three input arrays as the region finds them.
-/
import proofs.«101159_j79053168050931_1_alg».proof.Proof.Gen.KernelIdeal.Frame
import proofs.«101159_j79053168050931_1_alg».proof.Proof.LibGcn

noncomputable section

namespace Cert.KernelIdeal.Hand

open Cert.KernelIdeal Cert.KernelIdeal.Gen Cert.Spec Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a whole-buffer access, however spelt. -/
theorem hz2 : (![0, 0] : Fin 2 → Nat) = fun _ => 0 := funext fun a => by fin_cases a <;> rfl

/-- A block with the one-row bias block broadcast down its rows and added is the block with that row added to every
    row: the broadcast reads entry (0, q) of the row at every (p, q). -/
theorem bias2_eq (x0 : Vec Ideal S10000x128 .f32) (b0 : Vec Ideal S1x128 .f32) :
    (addf (shapeCast S10000x128 x0 shapeCasts_S10000x128_S10000x128)
        (broadcastTo S10000x128 (shapeCast S1x128 b0 shapeCasts_S1x128_S1x128) broadcasts_S1x128_S10000x128)
      : FVec Ideal S10000x128 .f32) = addRow x0 b0 := by
  rw [shapeCast_self, shapeCast_self]
  funext i
  obtain ⟨p, q, rfl⟩ : ∃ (p : Fin 10000) (q : Fin 128), i = ix2 p q := ⟨i 0, i 1, eq_ix2 i⟩
  rw [addf_apply, addRow_apply]
  refine congrArg _ (broadcastTo_apply b0 _ (ix2 p q) (ix2 (0 : Fin 1) q) fun a => ?_)
  match a with
  | ⟨0, _⟩ => rfl
  | ⟨1, _⟩ => rfl

/-- The body's payload: the positive part of the block plus the bias row, times the weights block — at the extended
    reals a change of float format is the identity and a matrix-unit product into the zero accumulator is the product. -/
theorem pay2_eq (x0 : Vec Ideal S10000x128 .f32) (b0 : Vec Ideal S1x128 .f32) (w0 : Vec Ideal S128x64 .f32) :
    k2_pay1 x0 b0 w0 = mm (relu (addRow x0 b0)) w0 := by
  unfold k2_pay1
  dsimp only
  rw [Cert.LibGcn.truncf_eq, Cert.LibGcn.truncf_eq, bias2_eq, Cert.LibGcn.max_splat_zero]
  exact Cert.LibGcn.matmul_zero_eq_mm _ rfl none _ w0

/-- The payload at an index of the block: when row (j 0) of the loaded block is row (i 0) of the array X, the bias and
    weights blocks are B and W, and the two indices have the same column, the payload there is (X + B)⁺ · W at i — an
    entry of a matrix product reads one row of its left factor only, and the bias row and the positive part act entry
    by entry. -/
theorem pay2_at (x0 : Vec Ideal S10000x128 .f32) (b0 : Vec Ideal S1x128 .f32) (w0 : Vec Ideal S128x64 .f32)
    (X : Mat 100000 128) (B : Mat 1 128) (W : Mat 128 64) (j : S10000x64.Idx) (i : S100000x64.Idx)
    (hx : ∀ q : Fin 128, x0 (ix2 (j 0) q) = X (ix2 (i 0) q)) (hb : b0 = B) (hw : w0 = W)
    (hcol : (i 1).val = (j 1).val) :
    k2_pay1 x0 b0 w0 j = mm (relu (addRow X B)) W i := by
  obtain ⟨p, q, rfl⟩ : ∃ (p : Fin 10000) (q : Fin 64), j = ix2 p q := ⟨j 0, j 1, eq_ix2 j⟩
  obtain ⟨p', q', rfl⟩ : ∃ (p' : Fin 100000) (q' : Fin 64), i = ix2 p' q' := ⟨i 0, i 1, eq_ix2 i⟩
  obtain rfl : q' = q := Fin.ext hcol
  subst hb hw
  have hx' : ∀ s : Fin 128, x0 (ix2 p s) = X (ix2 p' s) := hx
  rw [pay2_eq]
  refine Cert.LibGcn.mm_rows _ _ w0 p p' q' fun s => ?_
  rw [relu_apply, relu_apply, addRow_apply, addRow_apply, hx' s]

/-- The printed index maps, decided over the grid's ten points: the row-blocked windows are at block (t, 0), the bias
    and weights windows at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of (X + B)⁺ · W of the three input arrays as the region finds them. -/
theorem flushed2_eq (c : Dev nD) (t : Fin cfg2.N) :
    (dat2 (F := Ideal) V c).flushed 3 t
      = ((cfg2.win 3).blk t).view.read (Elt Ideal)
          (mm (relu (addRow (V c main_v59 : Mat 100000 128) (V c main_v60 : Mat 1 128))) (V c main_arg7 : Mat 128 64)) := by
  show (cfg2.win 3).cut (grid2.coords t) ((dat2 V c).after 3 t) = _
  rw [after2_3]
  unfold out2_3
  rw [View.canon_unit_zero hz2]
  simp only [View.ld_unit_zero (S := S10000x128) hz2, View.ld_unit_zero (S := S1x128) hz2, View.ld_unit_zero (S := S128x64) hz2, View.ld_unit_zero (S := S10000x64) hz2]
  obtain ⟨e0, e1, e2, e3, e4, e5, e6, e7⟩ := idx2 t
  funext j
  show k2_pay1 (iblk2 V c 0 t) (iblk2 V c 1 t) (iblk2 V c 2 t) j
    = mm (relu (addRow (V c main_v59 : Mat 100000 128) (V c main_v60 : Mat 1 128))) (V c main_arg7 : Mat 128 64)
        (((cfg2.win 3).blk t).view.emb j)
  refine pay2_at _ _ _ _ _ _ j _ ?_ ?_ ?_ ?_
  · intro q
    show V c main_v59 (((cfg2.win 0).blk t).view.emb (ix2 (j 0) q))
      = V c main_v59 (ix2 ((((cfg2.win 3).blk t).view.emb j) 0) q)
    refine congrArg _ (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 128 + 1 * q.val = q.val
      omega
  · funext k
    show V c main_v60 (((cfg2.win 1).blk t).view.emb k) = V c main_v60 k
    refine congrArg _ (funext fun a => Fin.ext ?_)
    match a with
    | ⟨0, _⟩ =>
      show win2_1.index t (0 : Fin 2) * 1 + 1 * (k 0).val = (k 0).val
      omega
    | ⟨1, _⟩ =>
      show win2_1.index t (1 : Fin 2) * 128 + 1 * (k 1).val = (k 1).val
      omega
  · funext k
    show V c main_arg7 (((cfg2.win 2).blk t).view.emb k) = V c main_arg7 k
    refine congrArg _ (funext fun a => Fin.ext ?_)
    match a with
    | ⟨0, _⟩ =>
      show win2_2.index t (0 : Fin 2) * 128 + 1 * (k 0).val = (k 0).val
      omega
    | ⟨1, _⟩ =>
      show win2_2.index t (1 : Fin 2) * 64 + 1 * (k 1).val = (k 1).val
      omega
  · show win2_3.index t (1 : Fin 2) * 64 + 1 * (j 1).val = (j 1).val
    omega

/-- An index of the array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v61).slice (win2_3.rect t)).set ↔ _
  rw [View.set_slice_whole, Rect.mem_set_unit]
  exact Iff.rfl

/-- The ten blocks of 10000 rows cover the array: row r is in the block of point r / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, show (i 0).val / 10000 < 10 by omega⟩, rfl⟩
  obtain ⟨e0, e1, e2, e3, e4, e5, e6, e7⟩ := idx2 t
  refine ⟨t, flush2_3 t, ?_⟩
  rw [mem_blk2]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 64 ≤ (i 1).val ∧ (i 1).val < win2_3.index t (1 : Fin 2) * 64 + 64
    omega

/-- The region's output array ends at (X + B)⁺ · W: the positive part of its input features plus the bias row, times
    the layer's weights. -/
theorem arr2 (c : Dev nD) :
    (dat2 (F := Ideal) V c).arrAt 3 cfg2.N
      = mm (relu (addRow (V c main_v59 : Mat 100000 128) (V c main_v60 : Mat 1 128))) (V c main_arg7 : Mat 128 64) :=
  (dat2 (F := Ideal) V c).arrAt_eq_of_cover 3 _ (fun t _ => flushed2_eq V c t) cover2

end Cert.KernelIdeal.Hand

end
-- ==== Proof.LibColumn.lean ====
/-
  Column vectors read at an index, for any sizes.

  A keepdims reduction leaves an `[a]` vector that is viewed as an `[a, 1]` column, a column is broadcast across `b`
  lanes, and a column is flattened back to `[a]`: each of these reads the operand at the row's one entry. A lane
  maximum of an `[a, b]` array from the word for -∞, at the extended reals, is the fold of `max` over the row's `b`
  entries from that word's value, and a lane sum from the zero word is the row's sum.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LibColumn

open Idealize.ShloMosaic ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column flattened to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Over result index `p`, the source index of a reduction of `[a, b]` along its lanes with lane coordinate `k` is `(p, k)`. -/
theorem lift_rows {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A lane maximum of an f32 `[a, b]` array from the word of -∞, at the extended reals: the fold of `max` over the row. -/
theorem rowMax_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine Finset.fold_congr fun k _ => ?_
  exact congrArg src (lift_rows h p k)

/-- A lane sum of an f32 `[a, b]` array from the zero word, at the extended reals: the row's sum. -/
theorem rowSum_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  exact Finset.sum_congr rfl fun k _ => congrArg src (lift_rows h p k)

end Idealize.ShloMosaic.LibColumn

end
-- ==== Proof.LibLogSoftmax.lean ====
/-
  The row-wise log-softmax over the extended reals, for any sizes.

  With M p the maximum of -∞ and the fold of max over row p from -∞, entry (p, j) of lsm X is
    (X (p, j) - M p) - log (∑ q, exp (X (p, q) - M p)),
  in the order of operations both programs use.  A vector body that takes the lane maximum, broadcasts it as a column,
  subtracts, exponentiates, takes the lane sum, its logarithm, broadcasts and subtracts again is lsm of its operand;
  the host's reduce / broadcast_in_dim chain of the same operations is lsm as well.  Entry (p, j) reads row p only.
-/
import Idealize.ShloMosaic.Lib.ValueIdx
import Idealize.ShloMosaic.Lib.ValueLayout
import Idealize.ShloMosaic.Lib.Pipeline.Value
import Idealize.ShloMosaic.PureOps.Ideal.Laws
import proofs.«101159_j79053168050931_1_alg».proof.Proof.LibMatOps
import proofs.«101159_j79053168050931_1_alg».proof.Proof.LibColumn

noncomputable section

open scoped BigOperators

namespace Cert.Gcn

open Cert.Spec Idealize.ShloMosaic Idealize.ShloMosaic.ValueIdx Idealize.ShloMosaic.LibColumn

variable {n d r N : ℕ}

/-- The maximum of row p as both programs take it: the maximum of -∞ and the fold of max over the row from -∞. -/
def rowMax (X : Mat n d) (p : Fin n) : EReal :=
  max (Ideal.ofBits .f32 0xFF800000#32)
    ((Finset.univ : Finset (Fin d)).fold max (Ideal.ofBits .f32 0xFF800000#32) fun k => X (ix2 p k))

/-- The row-wise log-softmax. -/
def lsm (X : Mat n d) : Mat n d := fun i =>
  (X i - rowMax X (i 0)) - Ideal.log (∑ q : Fin d, Ideal.exp (X (ix2 (i 0) q) - rowMax X (i 0)))

theorem lsm_apply (X : Mat n d) (p : Fin n) (j : Fin d) :
    lsm X (ix2 p j) = (X (ix2 p j) - rowMax X p) - Ideal.log (∑ q : Fin d, Ideal.exp (X (ix2 p q) - rowMax X p)) := rfl

/-- The maximum of row p reads row p only. -/
theorem rowMax_rows (A' : Mat r d) (A : Mat N d) (p : Fin r) (p' : Fin N)
    (h : ∀ s : Fin d, A' (ix2 p s) = A (ix2 p' s)) : rowMax A' p = rowMax A p' := by
  unfold rowMax
  exact congrArg (max _) (Finset.fold_congr fun k _ => h k)

/-- Entry (p, j) of the log-softmax reads row p only. -/
theorem lsm_rows (A' : Mat r d) (A : Mat N d) (p : Fin r) (p' : Fin N) (j : Fin d)
    (h : ∀ s : Fin d, A' (ix2 p s) = A (ix2 p' s)) : lsm A' (ix2 p j) = lsm A (ix2 p' j) := by
  rw [lsm_apply, lsm_apply, rowMax_rows A' A p p' h, h j]
  exact congrArg (fun z => (A (ix2 p' j) - rowMax A p') - Ideal.log z) (Finset.sum_congr rfl fun q _ => by rw [h q])

/-! ## The vector body -/

/-- The lane maximum from -∞, then the maximum with a splat of -∞, at row p. -/
theorem body_rowMax (A : FVec Ideal ⟨2, ![r, d]⟩ .f32) (hred : (⟨2, ![r, d]⟩ : Shape).Reduces [1] ⟨1, ![r]⟩)
    (hφ : FKind.Formats .f32) (hacc : (0xFF800000#32 : BitVec 32) = 0xFF800000#32) (p : Fin r) :
    (maximumf (broadcast ⟨1, ![r]⟩ (Scalar.ofBits .f32 0xFF800000#32 : Ideal .f32)) (multiReduction .maximumf [1] ⟨1, ![r]⟩ A 0xFF800000#32 hred hφ hacc)) (ix1 p) = rowMax A p := by
  rw [maximumf_apply, broadcast_apply, rowMax_f32 A hred hφ hacc p]
  rfl

/-- Once the subtracted array M is the row maximum in every lane, the rest of the body is the log-softmax. -/
theorem body_lsm_of_max (A M : FVec Ideal ⟨2, ![r, d]⟩ .f32) (hM : ∀ (p : Fin r) (j : Fin d), M (ix2 p j) = rowMax A p)
    (hred : (⟨2, ![r, d]⟩ : Shape).Reduces [1] ⟨1, ![r]⟩) (hφ : FKind.Formats .f32)
    (hacc' : (0x00000000#32 : BitVec 32) = 0x00000000#32)
    (hsc : (⟨1, ![r]⟩ : Shape).ShapeCasts ⟨2, ![r, 1]⟩) (hbc : (⟨2, ![r, 1]⟩ : Shape).Broadcasts ⟨2, ![r, d]⟩) :
    subf (subf A M) (broadcastTo ⟨2, ![r, d]⟩ (log (shapeCast ⟨2, ![r, 1]⟩ (multiReduction .add [1] ⟨1, ![r]⟩ (exp (subf A M)) 0x00000000#32 hred hφ hacc') hsc)) hbc) = lsm A := by
  funext i
  obtain ⟨p, j, rfl⟩ : ∃ (p : Fin r) (j : Fin d), i = ix2 p j := ⟨i 0, i 1, eq_ix2 i⟩
  rw [lsm_apply, subf_apply, subf_apply, hM p j, broadcastTo_a1_ab_apply]
  show _ - Ideal.log (shapeCast ⟨2, ![r, 1]⟩ _ hsc (ix2 p (0 : Fin 1))) = _
  rw [shapeCast_a_a1_apply, rowSum_f32 _ hred hφ hacc' p]
  refine congrArg (fun z => (A (ix2 p j) - rowMax A p) - Ideal.log z) (Finset.sum_congr rfl fun q _ => ?_)
  show Ideal.exp (subf A M (ix2 p q)) = _
  rw [subf_apply, hM p q]

/-- The vector body: lane maximum, column broadcast, difference, exponential, lane sum, logarithm, column broadcast,
    difference. -/
theorem body_lsm (A : FVec Ideal ⟨2, ![r, d]⟩ .f32) (hred : (⟨2, ![r, d]⟩ : Shape).Reduces [1] ⟨1, ![r]⟩)
    (hφ : FKind.Formats .f32) (hacc : (0xFF800000#32 : BitVec 32) = 0xFF800000#32)
    (hacc' : (0x00000000#32 : BitVec 32) = 0x00000000#32)
    (hsc : (⟨1, ![r]⟩ : Shape).ShapeCasts ⟨2, ![r, 1]⟩) (hbc : (⟨2, ![r, 1]⟩ : Shape).Broadcasts ⟨2, ![r, d]⟩) :
    subf (subf A (broadcastTo ⟨2, ![r, d]⟩ (shapeCast ⟨2, ![r, 1]⟩ (maximumf (broadcast ⟨1, ![r]⟩ (Scalar.ofBits .f32 0xFF800000#32 : Ideal .f32)) (multiReduction .maximumf [1] ⟨1, ![r]⟩ A 0xFF800000#32 hred hφ hacc)) hsc) hbc)) (broadcastTo ⟨2, ![r, d]⟩ (log (shapeCast ⟨2, ![r, 1]⟩ (multiReduction .add [1] ⟨1, ![r]⟩ (exp (subf A (broadcastTo ⟨2, ![r, d]⟩ (shapeCast ⟨2, ![r, 1]⟩ (maximumf (broadcast ⟨1, ![r]⟩ (Scalar.ofBits .f32 0xFF800000#32 : Ideal .f32)) (multiReduction .maximumf [1] ⟨1, ![r]⟩ A 0xFF800000#32 hred hφ hacc)) hsc) hbc))) 0x00000000#32 hred hφ hacc') hsc)) hbc) = lsm A := by
  refine body_lsm_of_max A _ (fun p j => ?_) hred hφ hacc' hsc hbc
  rw [broadcastTo_a1_ab_apply, shapeCast_a_a1_apply]
  exact body_rowMax A hred hφ hacc p

/-! ## The host's operations -/

/-- An `[a, 1]` column broadcast in dimensions (0, 1) to `[a, b]` reads the column's entry of the row. -/
theorem bcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector broadcast in dimension 0 to an `[a, 1]` column reads the vector at the row. -/
theorem bcastInDim_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's reduce with a maximum body from -∞ along the lanes, then the maximum with -∞ broadcast, at row p. -/
theorem host_rowMax (X : FVec Ideal ⟨2, ![n, d]⟩ .f32) (hr : (⟨2, ![n, d]⟩ : Shape).ReducesTo [1] ⟨1, ![n]⟩)
    (h0 : 0 < (⟨0, ![]⟩ : Shape).numel) (hb0 : (⟨0, ![]⟩ : Shape).BroadcastsInDim ⟨1, ![n]⟩ ![]) (p : Fin n) :
    (maximumf (broadcastInDim ⟨1, ![n]⟩ ![] hb0 (constant (F := Ideal) ⟨0, ![]⟩ .f32 0xFF800000#32)) (Host.reduce FloatOps.maximumf X (constant (F := Ideal) ⟨0, ![]⟩ .f32 0xFF800000#32) hr h0)) (ix1 p) = rowMax X p := by
  have hR : (⟨2, ![n, d]⟩ : Shape).Reduces [1] ⟨1, ![n]⟩ := ⟨hr.1, Nat.one_pos, hr.2⟩
  rw [maximumf_apply, Host.reduce_eq_fold_single FloatOps.maximumf X _ hr hR h0 (ix1 p)]
  show max (Ideal.ofBits .f32 0xFF800000#32)
      ((Finset.univ : Finset (Fin d)).fold max (Ideal.ofBits .f32 0xFF800000#32) (X ∘ hR.lift (ix1 p))) = _
  unfold rowMax
  exact congrArg (max _) (Finset.fold_congr fun k _ => congrArg X (lift_rows hR p k))

/-- The host's float sum from the zero word along the lanes, at row p: the row's sum. -/
theorem host_rowSum (Y : FVec Ideal ⟨2, ![n, d]⟩ .f32) (hr : (⟨2, ![n, d]⟩ : Shape).ReducesTo [1] ⟨1, ![n]⟩)
    (h0 : 0 < (⟨0, ![]⟩ : Shape).numel) (p : Fin n) :
    Host.reduceAdd Y (constant (F := Ideal) ⟨0, ![]⟩ .f32 0x00000000#32) hr h0 (ix1 p) = ∑ k : Fin d, Y (ix2 p k) := by
  have hR : (⟨2, ![n, d]⟩ : Shape).Reduces [1] ⟨1, ![n]⟩ := ⟨hr.1, Nat.one_pos, hr.2⟩
  show Ideal.hostReduceAdd hr Y (Ideal.ofBits .f32 0x00000000#32) (ix1 p) = _
  rw [Ideal.hostReduceAdd_single hr hR, Ideal.ofBits_zero_f32, zero_add]
  exact Finset.sum_congr rfl fun k _ => congrArg Y (lift_rows hR p k)

/-- Once the subtracted array M is the row maximum in every lane, the rest of the host's chain is the log-softmax. -/
theorem host_lsm_of_max (X M : FVec Ideal ⟨2, ![n, d]⟩ .f32) (hM : ∀ (p : Fin n) (j : Fin d), M (ix2 p j) = rowMax X p)
    (hr : (⟨2, ![n, d]⟩ : Shape).ReducesTo [1] ⟨1, ![n]⟩) (h0 : 0 < (⟨0, ![]⟩ : Shape).numel)
    (hb1 : (⟨1, ![n]⟩ : Shape).BroadcastsInDim ⟨2, ![n, 1]⟩ ![0])
    (hb2 : (⟨2, ![n, 1]⟩ : Shape).BroadcastsInDim ⟨2, ![n, d]⟩ ![0, 1]) :
    subf (subf X M) (broadcastInDim ⟨2, ![n, d]⟩ ![0, 1] hb2 (Host.log (broadcastInDim ⟨2, ![n, 1]⟩ ![0] hb1 (Host.reduceAdd (Host.exp (subf X M)) (constant (F := Ideal) ⟨0, ![]⟩ .f32 0x00000000#32) hr h0)))) = lsm X := by
  funext i
  obtain ⟨p, j, rfl⟩ : ∃ (p : Fin n) (j : Fin d), i = ix2 p j := ⟨i 0, i 1, eq_ix2 i⟩
  rw [lsm_apply, subf_apply, subf_apply, hM p j, bcastInDim_a1_ab_apply]
  show _ - Ideal.log (broadcastInDim (s := ⟨1, ![n]⟩) ⟨2, ![n, 1]⟩ ![0] hb1 _ (ix2 p (0 : Fin 1))) = _
  rw [bcastInDim_a_a1_apply, host_rowSum _ hr h0 p]
  refine congrArg (fun z => (X (ix2 p j) - rowMax X p) - Ideal.log z) (Finset.sum_congr rfl fun q _ => ?_)
  show Ideal.exp (subf X M (ix2 p q)) = _
  rw [subf_apply, hM p q]

/-- The host's log-softmax: reduce with maximum, two broadcasts, difference, exponential, float sum, broadcast,
    logarithm, broadcast, difference. -/
theorem host_lsm (X : FVec Ideal ⟨2, ![n, d]⟩ .f32) (hr : (⟨2, ![n, d]⟩ : Shape).ReducesTo [1] ⟨1, ![n]⟩)
    (h0 : 0 < (⟨0, ![]⟩ : Shape).numel) (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, d]⟩ ![0, 1]) :
    subf (subf X (broadcastInDim ⟨2, ![n, d]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce FloatOps.maximumf X (constant (F := Ideal) ⟨0, ![]⟩ .f32 0xFF800000#32) hr h0))))) (broadcastInDim ⟨2, ![n, d]⟩ ![0, 1] hb2 (Host.log (broadcastInDim ⟨2, ![n, 1]⟩ ![0] hb1 (Host.reduceAdd (Host.exp (subf X (broadcastInDim ⟨2, ![n, d]⟩ ![0, 1] hb2 (broadcastInDim ⟨2, ![n, 1]⟩ ![0] hb1 (maximumf (broadcastInDim ⟨1, ![n]⟩ ![] hb0 (constant (F := Ideal) ⟨0, ![]⟩ .f32 0xFF800000#32)) (Host.reduce FloatOps.maximumf X (constant (F := Ideal) ⟨0, ![]⟩ .f32 0xFF800000#32) hr h0)))))) (constant (F := Ideal) ⟨0, ![]⟩ .f32 0x00000000#32) hr h0)))) = lsm X := by
  refine host_lsm_of_max X _ (fun p j => ?_) hr h0 hb1 hb2
  rw [bcastInDim_a1_ab_apply, bcastInDim_a_a1_apply]
  exact host_rowMax X hr h0 hb0 p

end Cert.Gcn

end
-- ==== Proof.Region3.lean ====
/-
  The last region: each grid point adds the bias row to its block of 10000 rows, keeps the positive part, and takes
  the row-wise log-softmax.  Row p of block t of the result is row 10000·t + p of the log-softmax of the positive part
  of the whole array plus the bias row, because an entry of the log-softmax reads its own row only; the ten blocks
  cover the 100000 rows, so the array ends at that function of the whole arrays.
-/
import proofs.«101159_j79053168050931_1_alg».proof.Proof.Gen.KernelIdeal.Frame
import proofs.«101159_j79053168050931_1_alg».proof.Proof.LibLogSoftmax
import proofs.«101159_j79053168050931_1_alg».proof.Proof.LibGcn

set_option maxRecDepth 16384

noncomputable section

namespace Cert.KernelIdeal.Hand

open Cert.KernelIdeal Cert.KernelIdeal.Gen Cert.Spec Cert.Gcn Idealize.ShloMosaic Idealize.ShloMosaic.ValueIdx
  Idealize.ShloMosaic.TcCoe
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The body's payload: the bias row added to every row, the positive part, the row-wise log-softmax. -/
theorem pay3_eq (x0 : Vec Ideal S10000x64 .f32) (b0 : Vec Ideal S1x64 .f32) :
    k3_pay1 x0 b0 = lsm (relu (addRow (x0 : Mat 10000 64) (b0 : Mat 1 64))) := by
  have h7 : maximumf (addf (shapeCast S10000x64 x0 shapeCasts_S10000x64_S10000x64)
        (broadcastTo S10000x64 (shapeCast S1x64 b0 shapeCasts_S1x64_S1x64) broadcasts_S1x64_S10000x64))
      (broadcast S10000x64 (Scalar.ofBits .f32 0x00000000#32 : Ideal .f32))
        = relu (addRow (x0 : Mat 10000 64) (b0 : Mat 1 64)) := by
    rw [shapeCast_self, shapeCast_self]
    refine (Cert.LibGcn.max_splat_zero _).trans (congrArg relu ?_)
    funext i
    obtain ⟨p, j, rfl⟩ : ∃ (p : Fin 10000) (j : Fin 64), i = ix2 p j := ⟨i 0, i 1, eq_ix2 i⟩
    rw [addf_apply, addRow_apply, broadcastTo_1b_ab_apply]
  unfold k3_pay1
  exact (body_lsm _ reduces_S10000x64_S10000 (.inl rfl) rfl rfl shapeCasts_S10000_S10000x1
    broadcasts_S10000x1_S10000x64).trans (congrArg lsm h7)

/-- Row p of a block's result is row p' of the whole arrays' result, when row p of the block is row p' of the array
    and the bias rows agree. -/
theorem point3 (x0 : Vec Ideal S10000x64 .f32) (b0 : Vec Ideal S1x64 .f32) (X : Mat 100000 64) (B : Mat 1 64)
    (p : Fin 10000) (p' : Fin 100000) (q : Fin 64)
    (hx : ∀ s : Fin 64, x0 (ix2 p s) = X (ix2 p' s)) (hb : ∀ s : Fin 64, b0 (ix2 (0 : Fin 1) s) = B (ix2 (0 : Fin 1) s)) :
    lsm (relu (addRow (x0 : Mat 10000 64) (b0 : Mat 1 64))) (ix2 p q) = lsm (relu (addRow X B)) (ix2 p' q) := by
  refine lsm_rows _ _ p p' q fun s => ?_
  rw [relu_apply, relu_apply, addRow_apply, addRow_apply, hx s, hb s]

/-- The printed index maps, decided over the grid: the row-blocked windows are at block (t, 0), the bias at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the log-softmax of the positive part of the array plus the bias row. -/
theorem flushed3_eq (c : Dev nD) (t : Fin cfg3.N) :
    (dat3 (F := Ideal) V c).flushed 2 t = ((cfg3.win 2).blk t).view.read (Elt Ideal)
      (lsm (relu (addRow (V c main_v73 : Mat 100000 64) (V c main_v74 : Mat 1 64)))) := by
  show (cfg3.win 2).cut (grid3.coords t) ((dat3 (F := Ideal) V c).after 2 t) = _
  rw [after3_2]
  unfold out3_2
  rw [View.canon_unit_zero hz3]
  simp only [View.ld_unit_zero (S := S10000x64) hz3, View.ld_unit_zero (S := S1x64) hz3]
  rw [pay3_eq]
  obtain ⟨e0, e1, e2, e3, e4, e5⟩ := idx_facts3 t
  funext j
  obtain ⟨p, q, rfl⟩ : ∃ (p : Fin 10000) (q : Fin 64), j = ix2 p q := ⟨j 0, j 1, eq_ix2 j⟩
  have hp : t.val * 10000 + p.val < 100000 := by have := t.isLt; have hN : cfg3.N = 10 := N_3; have := p.isLt; omega
  show lsm (relu (addRow (iblk3 V c 0 t : Mat 10000 64) (iblk3 V c 1 t : Mat 1 64))) (ix2 p q)
    = lsm (relu (addRow (V c main_v73 : Mat 100000 64) (V c main_v74 : Mat 1 64))) (((cfg3.win 2).blk t).view.emb (ix2 p q))
  have hemb : ((cfg3.win 2).blk t).view.emb (ix2 p q) = ix2 (⟨t.val * 10000 + p.val, hp⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  refine point3 _ _ _ _ p _ q (fun s => ?_) (fun s => ?_)
  · show V c main_v73 (((cfg3.win 0).blk t).view.emb (ix2 p s)) = V c main_v73 (ix2 (⟨t.val * 10000 + p.val, hp⟩ : Fin 100000) s)
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * s.val = s.val; omega
  · show V c main_v74 (((cfg3.win 1).blk t).view.emb (ix2 (0 : Fin 1) s)) = V c main_v74 (ix2 (0 : Fin 1) s)
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * s.val = s.val; omega

/-- An index of the array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v75).slice (win3_2.rect t)).set ↔ _
  rw [View.set_slice_whole, Rect.mem_set_unit]
  exact Iff.rfl

/-- Row r of the array is in the block of point r / 10000: the ten blocks cover the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 64 ≤ (i 1).val ∧ (i 1).val < win3_2.index t (1 : Fin 2) * 64 + 64
    omega

/-- The array after the region: the log-softmax of the positive part of the entry array plus the bias row. -/
theorem arr3 (c : Dev nD) : (dat3 (F := Ideal) V c).arrAt 2 cfg3.N
    = lsm (relu (addRow (V c main_v73 : Mat 100000 64) (V c main_v74 : Mat 1 64))) :=
  (dat3 (F := Ideal) V c).arrAt_eq_of_cover 2 _ (fun t _ => flushed3_eq V c t) cover3

end Cert.KernelIdeal.Hand

end
-- ==== Proof.Bridge4.lean ====
/-
  The last stage: the region that adds the bias row, keeps the positive part and takes the row-wise log-softmax,
  against the reference's last 21 host operations, which do the same to the same array: both sides are the log-softmax
  of the positive part of the aggregated features plus the bias as one row.  The kernel program makes the row by a
  reshape of the bias vector, the reference by a broadcast in dimension: the same one-row matrix.
-/
import proofs.«101159_j79053168050931_1_alg».proof.Proof.Bridge0
import proofs.«101159_j79053168050931_1_alg».proof.Proof.KCarry
import proofs.«101159_j79053168050931_1_alg».proof.Proof.LibGcn
import proofs.«101159_j79053168050931_1_alg».proof.Proof.LibBiasRow
import proofs.«101159_j79053168050931_1_alg».proof.Proof.LibHostBoth
import proofs.«101159_j79053168050931_1_alg».proof.Proof.LibLogSoftmax
import proofs.«101159_j79053168050931_1_alg».proof.Proof.Region3

set_option maxRecDepth 16384

noncomputable section

namespace Cert.Bridge

open Idealize.ShloMosaic Idealize.ShloMosaic.TcCoe Idealize.SL.Sem Idealize.ShloMosaic.StableHlo
open Cert.LibHostBoth Cert.Spec Cert.Gcn

variable (m : KM) (ρ : Dev Cert.KernelIdeal.nD → PrngReg) (m' : RM) (c : Dev Cert.KernelIdeal.nD)

/-- The kernel program's side: the region's array after its ten points. -/
theorem s8_kernel
    (h73 : Cert.KernelIdeal.Gen.W9 m ρ c (Proc.devRef .tc Cert.KernelIdeal.main_v73) = B m' c 105 (Proc.devRef .tc Cert.ReferenceIdeal.main_v81)) :
    Cert.KernelIdeal.Gen.W10 m ρ c (Proc.devRef .tc Cert.KernelIdeal.main_v75)
      = lsm (relu (addRow (B m' c 105 (Proc.devRef .tc Cert.ReferenceIdeal.main_v81) : Mat 100000 64)
          (shapeCast Cert.KernelIdeal.S1x64 (m ((c.tc : Thread Cert.KernelIdeal.nD Cert.KernelIdeal.τ).loc Cert.KernelIdeal.main_arg8)) Cert.KernelIdeal.Gen.shapeCasts_S64_S1x64 : Mat 1 64))) := by
  have h74 : Cert.KernelIdeal.Gen.W9 m ρ c (Proc.devRef .tc Cert.KernelIdeal.main_v74)
      = shapeCast Cert.KernelIdeal.S1x64 (m ((c.tc : Thread Cert.KernelIdeal.nD Cert.KernelIdeal.τ).loc Cert.KernelIdeal.main_arg8)) Cert.KernelIdeal.Gen.shapeCasts_S64_S1x64 := by
    show StableHlo.after Cert.KernelIdeal.Gen.hostOps3 (Cert.KernelIdeal.Gen.W8 m ρ c) (Proc.devRef .tc Cert.KernelIdeal.main_v74) = _
    host_read
    rw [Cert.KernelIdeal.Hand.A8_arg8]
    rfl
  refine (Cert.KernelIdeal.Gen.W10_arr m ρ c 2).trans ?_
  rw [Cert.KernelIdeal.Hand.arr3]
  show lsm (relu (addRow (Cert.KernelIdeal.Gen.W9 m ρ c (Proc.devRef .tc Cert.KernelIdeal.main_v73)) (Cert.KernelIdeal.Gen.W9 m ρ c (Proc.devRef .tc Cert.KernelIdeal.main_v74)))) = _
  rw [h73, h74]

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The reference's side: its last 21 operations. -/
theorem s8_reference :
    B m' c (105 + 21) (Proc.devRef .tc Cert.ReferenceIdeal.main_v86)
      = lsm (relu (addRow (B m' c 105 (Proc.devRef .tc Cert.ReferenceIdeal.main_v81) : Mat 100000 64)
          (broadcastInDim Cert.ReferenceIdeal.S1x64 ![1] Cert.ReferenceIdeal.Gen.bcast_S64_S1x64_1 (m' ((c.tc : Thread Cert.ReferenceIdeal.nD Cert.ReferenceIdeal.τ).loc Cert.ReferenceIdeal.main_arg8)) : Mat 1 64))) := by
  rw [B_add]
  cut_line
  (try after_results_simp)
  results_loop
  simp only [ofBuf_toBuf]
  show subf _ _ = _
  refine (host_lsm _ Cert.ReferenceIdeal.Gen.reducesTo_S100000x64_S100000_d1 Cert.ReferenceIdeal.Gen.h_S_ Cert.ReferenceIdeal.Gen.bcast_S_S100000
    Cert.ReferenceIdeal.Gen.bcast_S100000_S100000x1_0 Cert.ReferenceIdeal.Gen.bcast_S100000x1_S100000x64_0_1).trans (congrArg lsm ?_)
  refine (Cert.LibGcn.max_bcast_zero _ Cert.ReferenceIdeal.Gen.bcast_S_S100000x64 _).trans (congrArg relu ?_)
  show addf _ _ = _
  rw [B105_arg8]
  exact Cert.LibBiasRow.addf_broadcastInDim_eq_addRow _ _ Cert.ReferenceIdeal.Gen.bcast_S1x64_S100000x64_0_1

/-- The last stage. -/
theorem s8_out
    (h73 : Cert.KernelIdeal.Gen.W9 m ρ c (Proc.devRef .tc Cert.KernelIdeal.main_v73) = B m' c 105 (Proc.devRef .tc Cert.ReferenceIdeal.main_v81))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    Cert.KernelIdeal.Gen.W10 m ρ c (Proc.devRef .tc Cert.KernelIdeal.main_v75) = B m' c (105 + 21) (Proc.devRef .tc Cert.ReferenceIdeal.main_v86) := by
  rw [s8_kernel m ρ m' c h73, s8_reference m' c, h8]
  exact congrArg (fun z : Mat 1 64 => lsm (relu (addRow (B m' c 105 (Proc.devRef .tc Cert.ReferenceIdeal.main_v81) : Mat 100000 64) z)))
    (Cert.LibBiasRow.shapeCast_eq_broadcastInDim _ Cert.KernelIdeal.Gen.shapeCasts_S64_S1x64 Cert.ReferenceIdeal.Gen.bcast_S64_S1x64_1)

end Cert.Bridge

end
-- ==== Proof.Bridge3.lean ====
/-
  The dense step of each layer: a kernel region against the reference's host operations.

  Read over the exact extended reals, where a change of float format is the identity, the first region is the product of
  the features with the first weights, which is the reference's first `dot_general`; the second and third regions add
  the bias row to the aggregated features, keep the positive part and multiply by the next weights, which are the
  reference's add, maximum with zero and `dot_general`. Each region's blocks of rows cover its output array and a row
  of the result reads the same row of the aggregated features only, so the array a region leaves is the whole-array
  product. The bias vector reaches the kernel as a reshape to one row and the reference as a broadcast in dimension to
  one row: the same row.
-/
import proofs.«101159_j79053168050931_1_alg».proof.Proof.Bridge0
import proofs.«101159_j79053168050931_1_alg».proof.Proof.KCarry
import proofs.«101159_j79053168050931_1_alg».proof.Proof.LibGcn
import proofs.«101159_j79053168050931_1_alg».proof.Proof.LibBiasRow
import proofs.«101159_j79053168050931_1_alg».proof.Proof.LibHostBoth
import proofs.«101159_j79053168050931_1_alg».proof.Proof.Region0
import proofs.«101159_j79053168050931_1_alg».proof.Proof.Region1
import proofs.«101159_j79053168050931_1_alg».proof.Proof.Region2
import proofs.«101159_j79053168050931_1_alg».proof.Proof.Bridge4

set_option maxRecDepth 16384

noncomputable section

namespace Cert.Bridge

open Idealize.ShloMosaic Idealize.ShloMosaic.TcCoe Idealize.SL.Sem Idealize.ShloMosaic.StableHlo
open Cert.LibHostBoth Cert.Spec

variable (m : KM) (ρ : Dev Cert.KernelIdeal.nD → PrngReg) (m' : RM) (c : Dev Cert.KernelIdeal.nD)

/-- The first dense step: the features times the first weights. -/
theorem s2_dense (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) :
    Cert.KernelIdeal.Gen.W4 m ρ c (Proc.devRef .tc Cert.KernelIdeal.main_v33) = B m' c (42 + 1) (Proc.devRef .tc Cert.ReferenceIdeal.main_v32) := by
  have hk : Cert.KernelIdeal.Gen.W4 m ρ c (Proc.devRef .tc Cert.KernelIdeal.main_v33) = mm ((m ((c.tc : Thread Cert.KernelIdeal.nD Cert.KernelIdeal.τ).loc Cert.KernelIdeal.main_arg0)) : Mat 100000 128) ((m ((c.tc : Thread Cert.KernelIdeal.nD Cert.KernelIdeal.τ).loc Cert.KernelIdeal.main_arg3)) : Mat 128 128) := by
    refine (Cert.KernelIdeal.Gen.W4_arr m ρ c 2).trans ?_
    rw [Cert.KernelIdeal.Hand.arr0]
    show mm (Cert.KernelIdeal.Gen.W3 m ρ c (Proc.devRef .tc Cert.KernelIdeal.main_arg0)) (Cert.KernelIdeal.Gen.W3 m ρ c (Proc.devRef .tc Cert.KernelIdeal.main_arg3)) = _
    rw [Cert.KernelIdeal.Hand.A3_arg0, Cert.KernelIdeal.Hand.A3_arg3]
  have hr : B m' c (42 + 1) (Proc.devRef .tc Cert.ReferenceIdeal.main_v32) = mm ((m' ((c.tc : Thread Cert.ReferenceIdeal.nD Cert.ReferenceIdeal.τ).loc Cert.ReferenceIdeal.main_arg0)) : Mat 100000 128) ((m' ((c.tc : Thread Cert.ReferenceIdeal.nD Cert.ReferenceIdeal.τ).loc Cert.ReferenceIdeal.main_arg3)) : Mat 128 128) := by
    rw [B_add]
    cut_line
    host_read
    rw [B42_arg0, B42_arg3]
    exact Cert.LibGcn.dotGeneral_eq_mm Cert.ReferenceIdeal.dot_S100000x128_S128x128_S100000x128_1_0_0_1_n_n rfl none _ _
  rw [hk, hr, h0, h3]

/-- The second dense step: bias, positive part, the second weights. -/
theorem s4_dense
    (hagg : Cert.KernelIdeal.Gen.W5 m ρ c (Proc.devRef .tc Cert.KernelIdeal.main_v45) = B m' c 59 (Proc.devRef .tc Cert.ReferenceIdeal.main_v45))
    (hb : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (hw : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    Cert.KernelIdeal.Gen.W6 m ρ c (Proc.devRef .tc Cert.KernelIdeal.main_v47) = B m' c (59 + 7) (Proc.devRef .tc Cert.ReferenceIdeal.main_v50) := by
  have e46 : Cert.KernelIdeal.Gen.W5 m ρ c (Proc.devRef .tc Cert.KernelIdeal.main_v46) = shapeCast Cert.KernelIdeal.S1x128 (m ((c.tc : Thread Cert.KernelIdeal.nD Cert.KernelIdeal.τ).loc Cert.KernelIdeal.main_arg4)) Cert.KernelIdeal.Gen.shapeCasts_S128_S1x128 := by
    show StableHlo.after Cert.KernelIdeal.Gen.hostOps1 (Cert.KernelIdeal.Gen.W4 m ρ c) (Proc.devRef .tc Cert.KernelIdeal.main_v46) = _
    host_read
    rw [Cert.KernelIdeal.Hand.A4_arg4]
    rfl
  have hk : Cert.KernelIdeal.Gen.W6 m ρ c (Proc.devRef .tc Cert.KernelIdeal.main_v47)
      = mm (relu (addRow (B m' c 59 (Proc.devRef .tc Cert.ReferenceIdeal.main_v45) : Mat 100000 128)
          (broadcastInDim Cert.ReferenceIdeal.S1x128 ![1] Cert.ReferenceIdeal.Gen.bcast_S128_S1x128_1 (m ((c.tc : Thread Cert.KernelIdeal.nD Cert.KernelIdeal.τ).loc Cert.KernelIdeal.main_arg4)) : Mat 1 128))) ((m ((c.tc : Thread Cert.KernelIdeal.nD Cert.KernelIdeal.τ).loc Cert.KernelIdeal.main_arg5)) : Mat 128 128) := by
    refine (Cert.KernelIdeal.Gen.W6_arr m ρ c 3).trans ?_
    rw [Cert.KernelIdeal.Hand.arr1]
    show mm (relu (addRow (Cert.KernelIdeal.Gen.W5 m ρ c (Proc.devRef .tc Cert.KernelIdeal.main_v45)) (Cert.KernelIdeal.Gen.W5 m ρ c (Proc.devRef .tc Cert.KernelIdeal.main_v46))))
      (Cert.KernelIdeal.Gen.W5 m ρ c (Proc.devRef .tc Cert.KernelIdeal.main_arg5)) = _
    rw [hagg, e46, Cert.KernelIdeal.Hand.A5_arg5, Cert.LibBiasRow.shapeCast_eq_broadcastInDim _ _ Cert.ReferenceIdeal.Gen.bcast_S128_S1x128_1]
  have hr : B m' c (59 + 7) (Proc.devRef .tc Cert.ReferenceIdeal.main_v50)
      = mm (relu (addRow (B m' c 59 (Proc.devRef .tc Cert.ReferenceIdeal.main_v45) : Mat 100000 128)
          (broadcastInDim Cert.ReferenceIdeal.S1x128 ![1] Cert.ReferenceIdeal.Gen.bcast_S128_S1x128_1 (m' ((c.tc : Thread Cert.ReferenceIdeal.nD Cert.ReferenceIdeal.τ).loc Cert.ReferenceIdeal.main_arg4)) : Mat 1 128))) ((m' ((c.tc : Thread Cert.ReferenceIdeal.nD Cert.ReferenceIdeal.τ).loc Cert.ReferenceIdeal.main_arg5)) : Mat 128 128) := by
    rw [B_add]
    cut_line
    (try after_results_simp)
    results_loop
    simp only [ofBuf_toBuf]
    rw [B59_arg5]
    refine (Cert.LibGcn.dotGeneral_eq_mm Cert.ReferenceIdeal.dot_S100000x128_S128x128_S100000x128_1_0_0_1_n_n rfl none _ _).trans (congrArg (fun A => mm A _) ?_)
    show maximumf _ _ = _
    refine (Cert.LibGcn.max_bcast_zero _ Cert.ReferenceIdeal.Gen.bcast_S_S100000x128 _).trans (congrArg relu ?_)
    show addf _ _ = _
    rw [B59_arg4]
    exact Cert.LibBiasRow.addf_broadcastInDim_eq_addRow _ _ Cert.ReferenceIdeal.Gen.bcast_S1x128_S100000x128_0_1
  rw [hk, hr, hb, hw]

/-- The third dense step: bias, positive part, the third weights. -/
theorem s6_dense
    (hagg : Cert.KernelIdeal.Gen.W7 m ρ c (Proc.devRef .tc Cert.KernelIdeal.main_v59) = B m' c 82 (Proc.devRef .tc Cert.ReferenceIdeal.main_v63))
    (hb : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (hw : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.KernelIdeal.Gen.W8 m ρ c (Proc.devRef .tc Cert.KernelIdeal.main_v61) = B m' c (82 + 7) (Proc.devRef .tc Cert.ReferenceIdeal.main_v68) := by
  have e46 : Cert.KernelIdeal.Gen.W7 m ρ c (Proc.devRef .tc Cert.KernelIdeal.main_v60) = shapeCast Cert.KernelIdeal.S1x128 (m ((c.tc : Thread Cert.KernelIdeal.nD Cert.KernelIdeal.τ).loc Cert.KernelIdeal.main_arg6)) Cert.KernelIdeal.Gen.shapeCasts_S128_S1x128 := by
    show StableHlo.after Cert.KernelIdeal.Gen.hostOps2 (Cert.KernelIdeal.Gen.W6 m ρ c) (Proc.devRef .tc Cert.KernelIdeal.main_v60) = _
    host_read
    rw [Cert.KernelIdeal.Hand.A6_arg6]
    rfl
  have hk : Cert.KernelIdeal.Gen.W8 m ρ c (Proc.devRef .tc Cert.KernelIdeal.main_v61)
      = mm (relu (addRow (B m' c 82 (Proc.devRef .tc Cert.ReferenceIdeal.main_v63) : Mat 100000 128)
          (broadcastInDim Cert.ReferenceIdeal.S1x128 ![1] Cert.ReferenceIdeal.Gen.bcast_S128_S1x128_1 (m ((c.tc : Thread Cert.KernelIdeal.nD Cert.KernelIdeal.τ).loc Cert.KernelIdeal.main_arg6)) : Mat 1 128))) ((m ((c.tc : Thread Cert.KernelIdeal.nD Cert.KernelIdeal.τ).loc Cert.KernelIdeal.main_arg7)) : Mat 128 64) := by
    refine (Cert.KernelIdeal.Gen.W8_arr m ρ c 3).trans ?_
    rw [Cert.KernelIdeal.Hand.arr2]
    show mm (relu (addRow (Cert.KernelIdeal.Gen.W7 m ρ c (Proc.devRef .tc Cert.KernelIdeal.main_v59)) (Cert.KernelIdeal.Gen.W7 m ρ c (Proc.devRef .tc Cert.KernelIdeal.main_v60))))
      (Cert.KernelIdeal.Gen.W7 m ρ c (Proc.devRef .tc Cert.KernelIdeal.main_arg7)) = _
    rw [hagg, e46, Cert.KernelIdeal.Hand.A7_arg7, Cert.LibBiasRow.shapeCast_eq_broadcastInDim _ _ Cert.ReferenceIdeal.Gen.bcast_S128_S1x128_1]
  have hr : B m' c (82 + 7) (Proc.devRef .tc Cert.ReferenceIdeal.main_v68)
      = mm (relu (addRow (B m' c 82 (Proc.devRef .tc Cert.ReferenceIdeal.main_v63) : Mat 100000 128)
          (broadcastInDim Cert.ReferenceIdeal.S1x128 ![1] Cert.ReferenceIdeal.Gen.bcast_S128_S1x128_1 (m' ((c.tc : Thread Cert.ReferenceIdeal.nD Cert.ReferenceIdeal.τ).loc Cert.ReferenceIdeal.main_arg6)) : Mat 1 128))) ((m' ((c.tc : Thread Cert.ReferenceIdeal.nD Cert.ReferenceIdeal.τ).loc Cert.ReferenceIdeal.main_arg7)) : Mat 128 64) := by
    rw [B_add]
    cut_line
    (try after_results_simp)
    results_loop
    simp only [ofBuf_toBuf]
    rw [B82_arg7]
    refine (Cert.LibGcn.dotGeneral_eq_mm Cert.ReferenceIdeal.dot_S100000x128_S128x64_S100000x64_1_0_0_1_n_n rfl none _ _).trans (congrArg (fun A => mm A _) ?_)
    show maximumf _ _ = _
    refine (Cert.LibGcn.max_bcast_zero _ Cert.ReferenceIdeal.Gen.bcast_S_S100000x128 _).trans (congrArg relu ?_)
    show addf _ _ = _
    rw [B82_arg6]
    exact Cert.LibBiasRow.addf_broadcastInDim_eq_addRow _ _ Cert.ReferenceIdeal.Gen.bcast_S1x128_S100000x128_0_1
  rw [hk, hr, hb, hw]

end Cert.Bridge

end
-- ==== Proof.Bridge5.lean ====
/-
  The two programs' results agree.

  Stage by stage from the launch: the index vectors and the normalisation; then three times a dense step (a kernel
  region against the reference's host operations) followed by the sparse aggregation (the same host operations in both
  programs); then the last region against the reference's bias, positive part and log-softmax. The vectors computed in
  the first stage ride unchanged to each aggregation. So the kernel program's result array is what the reference's
  result buffer holds after its 126 operations.
-/
import proofs.«101159_j79053168050931_1_alg».proof.Proof.Bridge1
import proofs.«101159_j79053168050931_1_alg».proof.Proof.Bridge2
import proofs.«101159_j79053168050931_1_alg».proof.Proof.Bridge3
import proofs.«101159_j79053168050931_1_alg».proof.Proof.Bridge4

set_option maxRecDepth 16384

noncomputable section

namespace Cert.Bridge

open Idealize.ShloMosaic Idealize.ShloMosaic.TcCoe Idealize.SL.Sem Idealize.ShloMosaic.StableHlo

variable (m : KM) (ρ : Dev Cert.KernelIdeal.nD → PrngReg) (m' : RM) (c : Dev Cert.KernelIdeal.nD)

/-- From memories that agree on the arguments, the kernel program's result is the reference's. -/
theorem results_agree (hag : Agree m m' c) :
    Cert.KernelIdeal.Gen.W10 m ρ c (Proc.devRef .tc Cert.KernelIdeal.main_v75) = StableHlo.after rops (launchContents m' c) (Proc.devRef .tc Cert.ReferenceIdeal.main_v86) := by
  rw [B_all]
  -- the index vectors and the normalisation when the first dense step begins
  have v5 : Cert.KernelIdeal.Gen.W3 m ρ c (Proc.devRef .tc Cert.KernelIdeal.main_v5) = B m' c 42 (Proc.devRef .tc Cert.ReferenceIdeal.main_v5) := by simpa only [Nat.reduceAdd] using s1_v5 m ρ m' c hag
  have v6 : Cert.KernelIdeal.Gen.W3 m ρ c (Proc.devRef .tc Cert.KernelIdeal.main_v6) = B m' c 42 (Proc.devRef .tc Cert.ReferenceIdeal.main_v6) := by simpa only [Nat.reduceAdd] using s1_v6 m ρ m' c hag
  have v32 : Cert.KernelIdeal.Gen.W3 m ρ c (Proc.devRef .tc Cert.KernelIdeal.main_v32) = broadcastInDim Cert.KernelIdeal.S1700000x1 ![0] Cert.KernelIdeal.Gen.bcast_S1700000_S1700000x1_0 (B m' c 42 (Proc.devRef .tc Cert.ReferenceIdeal.main_v31)) := by simpa only [Nat.reduceAdd] using s1_v32 m ρ m' c hag
  -- layer 1
  have h2 : Cert.KernelIdeal.Gen.W4 m ρ c (Proc.devRef .tc Cert.KernelIdeal.main_v33) = B m' c 43 (Proc.devRef .tc Cert.ReferenceIdeal.main_v32) := by simpa only [Nat.reduceAdd] using s2_dense m ρ m' c hag.1 hag.2.2.2.1
  have r5_a : B m' c 43 (Proc.devRef .tc Cert.ReferenceIdeal.main_v5) = B m' c 42 (Proc.devRef .tc Cert.ReferenceIdeal.main_v5) := by simpa only [Nat.reduceAdd] using B43_v5 m' c
  have r6_a : B m' c 43 (Proc.devRef .tc Cert.ReferenceIdeal.main_v6) = B m' c 42 (Proc.devRef .tc Cert.ReferenceIdeal.main_v6) := by simpa only [Nat.reduceAdd] using B43_v6 m' c
  have r31_a : B m' c 43 (Proc.devRef .tc Cert.ReferenceIdeal.main_v31) = B m' c 42 (Proc.devRef .tc Cert.ReferenceIdeal.main_v31) := by simpa only [Nat.reduceAdd] using B43_v31 m' c
  have e5_a : Cert.KernelIdeal.Gen.W4 m ρ c (Proc.devRef .tc Cert.KernelIdeal.main_v5) = B m' c 43 (Proc.devRef .tc Cert.ReferenceIdeal.main_v5) := (Cert.KernelIdeal.Hand.K4_v5 m ρ c).trans (v5.trans r5_a.symm)
  have e6_a : Cert.KernelIdeal.Gen.W4 m ρ c (Proc.devRef .tc Cert.KernelIdeal.main_v6) = B m' c 43 (Proc.devRef .tc Cert.ReferenceIdeal.main_v6) := (Cert.KernelIdeal.Hand.K4_v6 m ρ c).trans (v6.trans r6_a.symm)
  have e32_a : Cert.KernelIdeal.Gen.W4 m ρ c (Proc.devRef .tc Cert.KernelIdeal.main_v32) = broadcastInDim Cert.KernelIdeal.S1700000x1 ![0] Cert.KernelIdeal.Gen.bcast_S1700000_S1700000x1_0 (B m' c 43 (Proc.devRef .tc Cert.ReferenceIdeal.main_v31)) := (Cert.KernelIdeal.Hand.K4_v32 m ρ c).trans (v32.trans (by rw [r31_a]))
  have h3 : Cert.KernelIdeal.Gen.W5 m ρ c (Proc.devRef .tc Cert.KernelIdeal.main_v45) = B m' c 59 (Proc.devRef .tc Cert.ReferenceIdeal.main_v45) := by simpa only [Nat.reduceAdd] using s3_agg m ρ m' c h2 e5_a e6_a e32_a
  -- layer 2
  have h4 : Cert.KernelIdeal.Gen.W6 m ρ c (Proc.devRef .tc Cert.KernelIdeal.main_v47) = B m' c 66 (Proc.devRef .tc Cert.ReferenceIdeal.main_v50) := by simpa only [Nat.reduceAdd] using s4_dense m ρ m' c h3 hag.2.2.2.2.1 hag.2.2.2.2.2.1
  have r5_b : B m' c 66 (Proc.devRef .tc Cert.ReferenceIdeal.main_v5) = B m' c 42 (Proc.devRef .tc Cert.ReferenceIdeal.main_v5) := by simpa only [Nat.reduceAdd] using B66_v5 m' c
  have r6_b : B m' c 66 (Proc.devRef .tc Cert.ReferenceIdeal.main_v6) = B m' c 42 (Proc.devRef .tc Cert.ReferenceIdeal.main_v6) := by simpa only [Nat.reduceAdd] using B66_v6 m' c
  have r31_b : B m' c 66 (Proc.devRef .tc Cert.ReferenceIdeal.main_v31) = B m' c 42 (Proc.devRef .tc Cert.ReferenceIdeal.main_v31) := by simpa only [Nat.reduceAdd] using B66_v31 m' c
  have e5_b : Cert.KernelIdeal.Gen.W6 m ρ c (Proc.devRef .tc Cert.KernelIdeal.main_v5) = B m' c 66 (Proc.devRef .tc Cert.ReferenceIdeal.main_v5) := (Cert.KernelIdeal.Hand.K6_v5 m ρ c).trans (v5.trans r5_b.symm)
  have e6_b : Cert.KernelIdeal.Gen.W6 m ρ c (Proc.devRef .tc Cert.KernelIdeal.main_v6) = B m' c 66 (Proc.devRef .tc Cert.ReferenceIdeal.main_v6) := (Cert.KernelIdeal.Hand.K6_v6 m ρ c).trans (v6.trans r6_b.symm)
  have e32_b : Cert.KernelIdeal.Gen.W6 m ρ c (Proc.devRef .tc Cert.KernelIdeal.main_v32) = broadcastInDim Cert.KernelIdeal.S1700000x1 ![0] Cert.KernelIdeal.Gen.bcast_S1700000_S1700000x1_0 (B m' c 66 (Proc.devRef .tc Cert.ReferenceIdeal.main_v31)) := (Cert.KernelIdeal.Hand.K6_v32 m ρ c).trans (v32.trans (by rw [r31_b]))
  have h5 : Cert.KernelIdeal.Gen.W7 m ρ c (Proc.devRef .tc Cert.KernelIdeal.main_v59) = B m' c 82 (Proc.devRef .tc Cert.ReferenceIdeal.main_v63) := by simpa only [Nat.reduceAdd] using s5_agg m ρ m' c h4 e5_b e6_b e32_b
  -- layer 3
  have h6 : Cert.KernelIdeal.Gen.W8 m ρ c (Proc.devRef .tc Cert.KernelIdeal.main_v61) = B m' c 89 (Proc.devRef .tc Cert.ReferenceIdeal.main_v68) := by simpa only [Nat.reduceAdd] using s6_dense m ρ m' c h5 hag.2.2.2.2.2.2.1 hag.2.2.2.2.2.2.2.1
  have r5_c : B m' c 89 (Proc.devRef .tc Cert.ReferenceIdeal.main_v5) = B m' c 42 (Proc.devRef .tc Cert.ReferenceIdeal.main_v5) := by simpa only [Nat.reduceAdd] using B89_v5 m' c
  have r6_c : B m' c 89 (Proc.devRef .tc Cert.ReferenceIdeal.main_v6) = B m' c 42 (Proc.devRef .tc Cert.ReferenceIdeal.main_v6) := by simpa only [Nat.reduceAdd] using B89_v6 m' c
  have r31_c : B m' c 89 (Proc.devRef .tc Cert.ReferenceIdeal.main_v31) = B m' c 42 (Proc.devRef .tc Cert.ReferenceIdeal.main_v31) := by simpa only [Nat.reduceAdd] using B89_v31 m' c
  have e5_c : Cert.KernelIdeal.Gen.W8 m ρ c (Proc.devRef .tc Cert.KernelIdeal.main_v5) = B m' c 89 (Proc.devRef .tc Cert.ReferenceIdeal.main_v5) := (Cert.KernelIdeal.Hand.K8_v5 m ρ c).trans (v5.trans r5_c.symm)
  have e6_c : Cert.KernelIdeal.Gen.W8 m ρ c (Proc.devRef .tc Cert.KernelIdeal.main_v6) = B m' c 89 (Proc.devRef .tc Cert.ReferenceIdeal.main_v6) := (Cert.KernelIdeal.Hand.K8_v6 m ρ c).trans (v6.trans r6_c.symm)
  have e32_c : Cert.KernelIdeal.Gen.W8 m ρ c (Proc.devRef .tc Cert.KernelIdeal.main_v32) = broadcastInDim Cert.KernelIdeal.S1700000x1 ![0] Cert.KernelIdeal.Gen.bcast_S1700000_S1700000x1_0 (B m' c 89 (Proc.devRef .tc Cert.ReferenceIdeal.main_v31)) := (Cert.KernelIdeal.Hand.K8_v32 m ρ c).trans (v32.trans (by rw [r31_c]))
  have h7 : Cert.KernelIdeal.Gen.W9 m ρ c (Proc.devRef .tc Cert.KernelIdeal.main_v73) = B m' c 105 (Proc.devRef .tc Cert.ReferenceIdeal.main_v81) := by simpa only [Nat.reduceAdd] using s7_agg m ρ m' c h6 e5_c e6_c e32_c
  -- the last region
  simpa only [Nat.reduceAdd] using s8_out m ρ m' c h7 hag.2.2.2.2.2.2.2.2

end Cert.Bridge

end
-- ==== Proof.lean ====
/-
  A three-layer graph convolution, tiled dense steps against the plain jnp program, over the extended reals.

  Both programs normalise the edges of a graph with self loops (weighted in-degrees by a scatter-add, inverse square
  roots where positive) and then run three layers, each a dense product with that layer's weights followed by the
  aggregation over the edges: gather the source rows, scale by the edge's normalisation, scatter-add at the targets; then
  bias, positive part, and after the third layer the row-wise log-softmax. The kernel computes each dense product, fused
  with the previous layer's bias and positive part, in a kernel region over ten blocks of 10000 rows, and the final bias,
  positive part and log-softmax in a fourth region; everything else is the same host operations in the same order.
  Over the exact extended reals a change of float format is the identity, a matrix-unit product into a zero accumulator
  is the host's dot_general, and a lane reduction is the host's reduce, so the two programs compute one function: no
  algebraic law beyond that is needed and the finiteness of the inputs is not used. The frames are the generated ones;
  the idealization rewrote no operation.
-/
import proofs.«101159_j79053168050931_1_alg».proof.Defs
import proofs.«101159_j79053168050931_1_alg».proof.Proof.Gen.Kernel
import proofs.«101159_j79053168050931_1_alg».proof.Proof.Gen.Kernel.Frame
import proofs.«101159_j79053168050931_1_alg».proof.Proof.Gen.KernelIdeal
import proofs.«101159_j79053168050931_1_alg».proof.Proof.Gen.KernelIdeal.Frame
import proofs.«101159_j79053168050931_1_alg».proof.Proof.Gen.ReferenceIdeal
import proofs.«101159_j79053168050931_1_alg».proof.Proof.Gen.Pre_finite_inputs
import proofs.«101159_j79053168050931_1_alg».proof.Proof.RefRun
import proofs.«101159_j79053168050931_1_alg».proof.Proof.KernelRun
import proofs.«101159_j79053168050931_1_alg».proof.Proof.Bridge5
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end, the kernel program's result array at its last boundary's contents and the reference's result buffer
    at the fold of its operations; from memories agreeing on the arguments these are equal. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.Bridge.results_agree m ρ m' c (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
